-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S100000x3 .f32) (main_arg1 : FVec F S100000x3 .f32) (main_arg2 : FVec F S100000x3 .f32) (main_arg3 : IVec S2x3200000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  main_v13
-- ==== Kernel.lean ====
abbrev S100000x3 : Shape := ⟨2, ![100000, 3]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S3200000x4 : Shape := ⟨2, ![3200000, 4]⟩
abbrev S100000x4 : Shape := ⟨2, ![100000, 4]⟩
abbrev S100000x1 : Shape := ⟨2, ![100000, 1]⟩
abbrev S3x100000 : Shape := ⟨2, ![3, 100000]⟩
abbrev S3x102400 : Shape := ⟨2, ![3, 102400]⟩
abbrev S1x100000 : Shape := ⟨2, ![1, 100000]⟩
abbrev S1x102400 : Shape := ⟨2, ![1, 102400]⟩
abbrev S1x1 : Shape := ⟨2, ![1, 1]⟩
abbrev S3x25600 : Shape := ⟨2, ![3, 25600]⟩
abbrev S1x25600 : Shape := ⟨2, ![1, 25600]⟩
abbrev S25600 : Shape := ⟨1, ![25600]⟩
abbrev S1 : Shape := ⟨1, ![1]⟩

abbrev nBuf : Space → Nat
  | .hbm => 53
  | .vmem => 15
  | .smem => 0
  | _ => 0

abbrev bufTy : (tb : Table) → Fin (tcTables nBuf tb) → BufTy
  | .hbm, ⟨0, _⟩ => ⟨S100000x3, .f32⟩
  | .hbm, ⟨1, _⟩ => ⟨S100000x3, .f32⟩
  | .hbm, ⟨2, _⟩ => ⟨S100000x3, .f32⟩
  | .hbm, ⟨3, _⟩ => ⟨S2x3200000, .i32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S100000x3, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x3, .f32⟩
  | .hbm, ⟨18, _⟩ => ⟨S_, .f32⟩
  | .hbm, ⟨19, _⟩ => ⟨S3200000x1, .f32⟩
  | .hbm, ⟨20, _⟩ => ⟨S3200000x4, .f32⟩
  | .hbm, ⟨21, _⟩ => ⟨S_, .f32⟩
  | .hbm, ⟨22, _⟩ => ⟨S100000x4, .f32⟩
  | .hbm, ⟨23, _⟩ => ⟨S3200000x1, .i32⟩
  | .hbm, ⟨24, _⟩ => ⟨S100000x4, .f32⟩
  | .hbm, ⟨25, _⟩ => ⟨S100000x3, .f32⟩
  | .hbm, ⟨26, _⟩ => ⟨S100000x1, .f32⟩
  | .hbm, ⟨27, _⟩ => ⟨S3x100000, .f32⟩
  | .hbm, ⟨28, _⟩ => ⟨S_, .i32⟩
  | .hbm, ⟨29, _⟩ => ⟨S_, .f32⟩
  | .hbm, ⟨30, _⟩ => ⟨S3x102400, .f32⟩
  | .hbm, ⟨31, _⟩ => ⟨S3x100000, .f32⟩
  | .hbm, ⟨32, _⟩ => ⟨S_, .i32⟩
  | .hbm, ⟨33, _⟩ => ⟨S_, .f32⟩
  | .hbm, ⟨34, _⟩ => ⟨S3x102400, .f32⟩
  | .hbm, ⟨35, _⟩ => ⟨S3x100000, .f32⟩
  | .hbm, ⟨36, _⟩ => ⟨S_, .i32⟩
  | .hbm, ⟨37, _⟩ => ⟨S_, .f32⟩
  | .hbm, ⟨38, _⟩ => ⟨S3x102400, .f32⟩
  | .hbm, ⟨39, _⟩ => ⟨S1x100000, .f32⟩
  | .hbm, ⟨40, _⟩ => ⟨S_, .i32⟩
  | .hbm, ⟨41, _⟩ => ⟨S_, .f32⟩
  | .hbm, ⟨42, _⟩ => ⟨S1x102400, .f32⟩
  | .hbm, ⟨43, _⟩ => ⟨S3x100000, .f32⟩
  | .hbm, ⟨44, _⟩ => ⟨S_, .i32⟩
  | .hbm, ⟨45, _⟩ => ⟨S_, .f32⟩
  | .hbm, ⟨46, _⟩ => ⟨S3x102400, .f32⟩
  | .hbm, ⟨47, _⟩ => ⟨S1x1, .f32⟩
  | .hbm, ⟨48, _⟩ => ⟨S1x1, .f32⟩
  | .hbm, ⟨49, _⟩ => ⟨S1x1, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S3x25600, .f32⟩
  | .local _ .vmem, ⟨1, _⟩ => ⟨S3x25600, .f32⟩
  | .local _ .vmem, ⟨2, _⟩ => ⟨S3x25600, .f32⟩
  | .local _ .vmem, ⟨3, _⟩ => ⟨S3x25600, .f32⟩
  | .local _ .vmem, ⟨4, _⟩ => ⟨S3x25600, .f32⟩
  | .local _ .vmem, ⟨5, _⟩ => ⟨S3x25600, .f32⟩
  | .local _ .vmem, ⟨6, _⟩ => ⟨S1x25600, .f32⟩
  | .local _ .vmem, ⟨7, _⟩ => ⟨S1x25600, .f32⟩
  | .local _ .vmem, ⟨8, _⟩ => ⟨S3x25600, .f32⟩
  | .local _ .vmem, ⟨9, _⟩ => ⟨S3x25600, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_call2_v0 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_call3_v0 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_call4_v0 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v29_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x25600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x25600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x25600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  concatenates_S3200000x3_S3200000x1_S3200000x4_d1 : Shape.Concatenates [S3200000x3, S3200000x1] S3200000x4 1
  bcast_S_S100000x4 : S_.BroadcastsInDim S100000x4 (![] : Fin 0 → Fin S100000x4.rank)
  slices_S100000x4_S100000x3_0_0 : S100000x4.Slices ![0, 0] S100000x3
  slices_S100000x4_S100000x1_0_3 : S100000x4.Slices ![0, 3] S100000x1
  transposes_S100000x3_S3x100000_1_0 : S100000x3.Transposes [1, 0] S3x100000
  pads_S3x100000_S3x102400_000_024000 : S3x100000.Pads (![0, 0] : Fin 2 → Nat) ![0, 2400] ![0, 0] S3x102400
  h_S_ : 0 < S_.numel
  transposes_S100000x1_S1x100000_1_0 : S100000x1.Transposes [1, 0] S1x100000
  pads_S1x100000_S1x102400_000_024000 : S1x100000.Pads (![0, 0] : Fin 2 → Nat) ![0, 2400] ![0, 0] S1x102400
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x25600_S3x25600_0_0 : ∀ a, (![0, 0] : Fin 2 → Nat) a + S3x25600.size a ≤ S3x25600.size a
  h_S3x25600 : 0 < S3x25600.numel
  shapeCasts_S3x25600_S3x25600 : S3x25600.ShapeCasts S3x25600
  inb_S1x25600_S1x25600_0_0 : ∀ a, (![0, 0] : Fin 2 → Nat) a + S1x25600.size a ≤ S1x25600.size a
  h_S1x25600 : 0 < S1x25600.numel
  shapeCasts_S1x25600_S1x25600 : S1x25600.ShapeCasts S1x25600
  reduces_S3x25600_S25600 : S3x25600.Reduces [0] S25600
  shapeCasts_S25600_S1x25600 : S25600.ShapeCasts S1x25600
  reduces_S1x25600_S1 : S1x25600.Reduces [1] S1
  shapeCasts_S1_S1x1 : S1.ShapeCasts S1x1
  broadcasts_S1x25600_S3x25600 : S1x25600.Broadcasts S3x25600
  shapeCasts_S1x1_S_ : S1x1.ShapeCasts S_
  gather_S100000x3_S3200000x1_S3200000x3_1_0_n_n_0_1_13_wf : GatherDims.WF S100000x3 S3200000x1 S3200000x3 [1] [0] [] [0] [] 1 ![1, 3]
  scatter_S100000x4_S3200000x1_S3200000x4_1_0_0_1_wf : ScatterDims.WF S100000x4 S3200000x1 S3200000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x25600.size a ≤ S3x102400.size a
  hwx0_0 : ∀ i : grid0.Coords, EltTy.bits .f32 = 32 ∨ (Rect.block (s := S3x102400) S3x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x25600.size a ≤ S3x102400.size a
  hwx0_1 : ∀ i : grid0.Coords, EltTy.bits .f32 = 32 ∨ (Rect.block (s := S3x102400) S3x25600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x25600.size a ≤ S3x102400.size a
  hwx0_2 : ∀ i : grid0.Coords, EltTy.bits .f32 = 32 ∨ (Rect.block (s := S3x102400) S3x25600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x25600.size a ≤ S1x102400.size a
  hwx0_3 : ∀ i : grid0.Coords, EltTy.bits .f32 = 32 ∨ (Rect.block (s := S1x102400) S1x25600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x25600.size a ≤ S3x102400.size a
  hwx0_4 : ∀ i : grid0.Coords, EltTy.bits .f32 = 32 ∨ (Rect.block (s := S3x102400) S3x25600.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

abbrev win0_0 : Pipeline.Window sig grid0 :=
  Pipeline.Window.ofSpec (Memref.whole main_v20) S3x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S3x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S3x25600.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x25600.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S3x25600.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_2) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S100000x3 : Shape := ⟨2, ![100000, 3]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩

abbrev nBuf : Space → Nat
  | .hbm => 69
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x3, .f32⟩
  | .hbm, ⟨2, _⟩ => ⟨S100000x3, .f32⟩
  | .hbm, ⟨3, _⟩ => ⟨S2x3200000, .i32⟩
  | .hbm, ⟨4, _⟩ => ⟨S1x3200000, .i32⟩
  | .hbm, ⟨5, _⟩ => ⟨S3200000, .i32⟩
  | .hbm, ⟨6, _⟩ => ⟨S1x3200000, .i32⟩
  | .hbm, ⟨7, _⟩ => ⟨S3200000, .i32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x3, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x3, .f32⟩
  | .hbm, ⟨26, _⟩ => ⟨S3200000x3, .f32⟩
  | .hbm, ⟨27, _⟩ => ⟨S_, .f32⟩
  | .hbm, ⟨28, _⟩ => ⟨S100000x3, .f32⟩
  | .hbm, ⟨29, _⟩ => ⟨S3200000x1, .i32⟩
  | .hbm, ⟨30, _⟩ => ⟨S100000x3, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x3, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x3, .f32⟩
  | .hbm, ⟨49, _⟩ => ⟨S3200000x3, .f32⟩
  | .hbm, ⟨50, _⟩ => ⟨S_, .f32⟩
  | .hbm, ⟨51, _⟩ => ⟨S100000x3, .f32⟩
  | .hbm, ⟨52, _⟩ => ⟨S3200000x1, .i32⟩
  | .hbm, ⟨53, _⟩ => ⟨S100000x3, .f32⟩
  | .hbm, ⟨54, _⟩ => ⟨S100000x3, .f32⟩
  | .hbm, ⟨55, _⟩ => ⟨S100000x3, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S100000x3, .f32⟩
  | .hbm, ⟨61, _⟩ => ⟨S100000x3, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x3 : S_.BroadcastsInDim S100000x3 (![] : Fin 0 → Fin S100000x3.rank)
  reducesTo_S100000x3_S_d0_1 : S100000x3.ReducesTo [0, 1] S_
  h_S_ : 0 < S_.numel
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.KernelPieces.lean ====
/-
  What one run of the kernel body leaves, case by case, as values.

  The body keeps two running totals in scratch memory, each a 1 x 1 array: the first receives the sum of |p - g| over the
  point's tile, the second the sum of |c * d - s| over it.  At the first grid point both totals are first set to zero (so
  the total read back is that zero); at the last point the three results are stored: the first total divided by 300000,
  the second total divided by 300000, and the first quotient plus half the second.  Each lemma below reads one stored
  array back as the body's arithmetic applied to the tile's blocks and the totals found.
-/
import proofs.«169432_j69655779607183_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

theorem first_total1 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : cond0_0 i) (hc1 : ¬cond0_1 i)
    (x0 x1 x2 : Vec F S3x25600 .f32) (x3 : Vec F S1x25600 .f32) (x4 : Vec F S3x25600 .f32) :
    sout0_A_0 c i a1 h1 a2 h2 a3 h3 a4 h4 a5 h5 a6 h6 a7 h7 a8 h8 a9 h9 a10 h10 hc0 hc1 x0 x1 x2 x3 x4 = k0_pay7 x0 x1 k0_pay5 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4)]
  unfold kernelRun0_A
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

theorem first_total2 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : cond0_0 i) (hc1 : ¬cond0_1 i)
    (x0 x1 x2 : Vec F S3x25600 .f32) (x3 : Vec F S1x25600 .f32) (x4 : Vec F S3x25600 .f32) :
    sout0_A_1 c i a1 h1 a2 h2 a3 h3 a4 h4 a5 h5 a6 h6 a7 h7 a8 h8 a9 h9 a10 h10 hc0 hc1 x0 x1 x2 x3 x4 = k0_pay1 (k0_pay8 x2 x3 x4 k0_pay6) := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3 x4)]
  unfold kernelRun0_A
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

theorem mid_total1 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : ¬cond0_1 i)
    (x0 x1 x2 : Vec F S3x25600 .f32) (x3 : Vec F S1x25600 .f32) (x4 : Vec F S3x25600 .f32) (xs0 xs1 : Vec F S1x1 .f32) :
    sout0_B_0 c i a1 h1 a2 h2 a3 h3 a4 h4 a5 h5 a6 h6 a7 h7 a8 h8 a9 h9 a10 h10 hc0 hc1 x0 x1 x2 x3 x4 xs0 xs1 = k0_pay7 x0 x1 xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 xs0 xs1)]
  unfold kernelRun0_B
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

theorem mid_total2 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : ¬cond0_1 i)
    (x0 x1 x2 : Vec F S3x25600 .f32) (x3 : Vec F S1x25600 .f32) (x4 : Vec F S3x25600 .f32) (xs0 xs1 : Vec F S1x1 .f32) :
    sout0_B_1 c i a1 h1 a2 h2 a3 h3 a4 h4 a5 h5 a6 h6 a7 h7 a8 h8 a9 h9 a10 h10 hc0 hc1 x0 x1 x2 x3 x4 xs0 xs1 = k0_pay1 (k0_pay8 x2 x3 x4 xs1) := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 x4 xs0 xs1)]
  unfold kernelRun0_B
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

theorem last_total1 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i)
    (x0 x1 x2 : Vec F S3x25600 .f32) (x3 : Vec F S1x25600 .f32) (x4 : Vec F S3x25600 .f32) (xs0 xs1 : Vec F S1x1 .f32) :
    sout0_C_0 c i a1 h1 a2 h2 a3 h3 a4 h4 a5 h5 a6 h6 a7 h7 a8 h8 a9 h9 a10 h10 hc0 hc1 x0 x1 x2 x3 x4 xs0 xs1 = k0_pay7 x0 x1 xs0 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 xs0 xs1)]
  unfold kernelRun0_C
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

theorem last_total2 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i)
    (x0 x1 x2 : Vec F S3x25600 .f32) (x3 : Vec F S1x25600 .f32) (x4 : Vec F S3x25600 .f32) (xs0 xs1 : Vec F S1x1 .f32) :
    sout0_C_1 c i a1 h1 a2 h2 a3 h3 a4 h4 a5 h5 a6 h6 a7 h7 a8 h8 a9 h9 a10 h10 hc0 hc1 x0 x1 x2 x3 x4 xs0 xs1 = k0_pay1 (k0_pay8 x2 x3 x4 xs1) := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 x4 xs0 xs1)]
  unfold kernelRun0_C
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

theorem last_out5 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i)
    (x0 x1 x2 : Vec F S3x25600 .f32) (x3 : Vec F S1x25600 .f32) (x4 : Vec F S3x25600 .f32) (xs0 xs1 : Vec F S1x1 .f32) :
    out0_C_5 c i a1 h1 a2 h2 a3 h3 a4 h4 a5 h5 a6 h6 a7 h7 a8 h8 a9 h9 a10 h10 hc0 hc1 x0 x1 x2 x3 x4 xs0 xs1 = k0_pay4 (k0_pay7 x0 x1 xs0) (k0_pay1 (k0_pay8 x2 x3 x4 xs1)) := by
  unfold out0_C_5
  rw [View.read_writes_eq_canon _ _ _ (cover0_C_5 c i a1 h1 a2 h2 a3 h3 a4 h4 a5 h5 a6 h6 a7 h7 a8 h8 a9 h9 a10 h10 hc0 hc1 x0 x1 x2 x3 x4 xs0 xs1)]
  unfold kernelRun0_C
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

theorem last_out6 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i)
    (x0 x1 x2 : Vec F S3x25600 .f32) (x3 : Vec F S1x25600 .f32) (x4 : Vec F S3x25600 .f32) (xs0 xs1 : Vec F S1x1 .f32) :
    out0_C_6 c i a1 h1 a2 h2 a3 h3 a4 h4 a5 h5 a6 h6 a7 h7 a8 h8 a9 h9 a10 h10 hc0 hc1 x0 x1 x2 x3 x4 xs0 xs1 = k0_pay2 (k0_pay7 x0 x1 xs0) := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 xs0 xs1)]
  unfold kernelRun0_C
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

theorem last_out7 (c : Dev nD) (i : grid0.Coords) (a1 : Memref sig .tc .vmem S3x25600 .f32) (h1 : a1.IsWhole) (a2 : Memref sig .tc .vmem S3x25600 .f32) (h2 : a2.IsWhole) (a3 : Memref sig .tc .vmem S3x25600 .f32) (h3 : a3.IsWhole) (a4 : Memref sig .tc .vmem S1x25600 .f32) (h4 : a4.IsWhole) (a5 : Memref sig .tc .vmem S3x25600 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x1 .f32) (h10 : a10.IsWhole) (hc0 : ¬cond0_0 i) (hc1 : cond0_1 i)
    (x0 x1 x2 : Vec F S3x25600 .f32) (x3 : Vec F S1x25600 .f32) (x4 : Vec F S3x25600 .f32) (xs0 xs1 : Vec F S1x1 .f32) :
    out0_C_7 c i a1 h1 a2 h2 a3 h3 a4 h4 a5 h5 a6 h6 a7 h7 a8 h8 a9 h9 a10 h10 hc0 hc1 x0 x1 x2 x3 x4 xs0 xs1 = k0_pay3 (k0_pay1 (k0_pay8 x2 x3 x4 xs1)) := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 xs0 xs1)]
  unfold kernelRun0_C
  dsimp only
  try sl_unfold_words
  first | rw [View.canon_cons_unit_zero (S := S1x1) hz] | rw [View.canon_unit_zero (S := S1x1) hz]
  simp only [View.readCov_unit_zero (S := S1x1) _ hz, View.readAt_eq_ld, h1.read_unread, h2.read_unread, h3.read_unread, h4.read_unread, h5.read_unread, h9.read_unread, h10.read_unread, View.ld_unit_zero (S := S3x25600) hz, View.ld_unit_zero (S := S1x25600) hz, View.ld_unit_zero (S := S1x1) hz]

end Cert.KernelIdeal.Pieces

end
-- ==== Proof.KernelFold.lean ====
/-
  The two running totals after each grid point, and the three results after the last.

  After point 0 the first total is the tile sum added to the zero just stored; after point n + 1 it is the tile sum of that
  point added to the total after point n.  The same holds for the second total.  What the generated run records in the
  scratch after each point is exactly this recursion (by induction on the point), and at the last point the three outputs
  are the two quotients and their weighted sum of the totals after that point.
-/
import proofs.«169432_j69655779607183_2_alg».proof.Proof.Gen.KernelIdeal.Frame
import Idealize.ShloMosaic.Lib.Pipeline.Value
import Idealize.ShloMosaic.Lib.Tactic
import proofs.«169432_j69655779607183_2_alg».proof.Proof.KernelPieces

noncomputable section

open Idealize.ShloMosaic Idealize.ShloMosaic.TcCoe Idealize.SL.Sem
open Idealize.ShloMosaic.Pipeline (Dat)

namespace Cert.KernelIdeal.Fold
open Cert.KernelIdeal Cert.KernelIdeal.Gen Cert.KernelIdeal.Pieces
variable {F : FTy → Type} [FloatOps F]
variable (m : (ℓ : Loc nD τ sig) → Buf (Elt F) ℓ)

/-- The first running total after point n. -/
def tot1 (c : Dev nD) : (n : ℕ) → n < cfg0.N → Vec F S1x1 .f32
  | 0, h => k0_pay7 (iblk m c 0 ⟨0, h⟩) (iblk m c 1 ⟨0, h⟩) k0_pay5
  | n + 1, h => k0_pay7 (iblk m c 0 ⟨n + 1, h⟩) (iblk m c 1 ⟨n + 1, h⟩) (tot1 c n (Nat.lt_of_succ_lt h))

/-- The second running total after point n. -/
def tot2 (c : Dev nD) : (n : ℕ) → n < cfg0.N → Vec F S1x1 .f32
  | 0, h => k0_pay1 (k0_pay8 (iblk m c 2 ⟨0, h⟩) (iblk m c 3 ⟨0, h⟩) (iblk m c 4 ⟨0, h⟩) k0_pay6)
  | n + 1, h => k0_pay1 (k0_pay8 (iblk m c 2 ⟨n + 1, h⟩) (iblk m c 3 ⟨n + 1, h⟩) (iblk m c 4 ⟨n + 1, h⟩) (tot2 c n (Nat.lt_of_succ_lt h)))

/-- The scratch after point n holds the two running totals. -/
theorem scratch_eq (c : Dev nD) : ∀ (n : ℕ) (h : n < cfg0.N),
    (outsAt0 m c n h).2.2.2.1 = tot1 m c n h ∧ (outsAt0 m c n h).2.2.2.2 = tot2 m c n h
  | 0, h => by
    rw [outsAt0_A m c ⟨0, h⟩ rfl (by dsimp only; omega)]
    dsimp only
    rw [first_total1, first_total2]
    exact ⟨rfl, rfl⟩
  | n + 1, h => by
    have hN : cfg0.N = 4 := N_0
    have ih := scratch_eq c n (Nat.lt_of_succ_lt h)
    have h0 : ¬(⟨n + 1, h⟩ : Fin cfg0.N).val % 4 = 0 := by dsimp only; omega
    by_cases h1 : (⟨n + 1, h⟩ : Fin cfg0.N).val % 4 = 3
    · rw [outsAt0_C m c ⟨n + 1, h⟩ h0 h1]
      dsimp only
      rw [last_total1, last_total2]
      simp only [Nat.add_sub_cancel]
      rw [ih.1, ih.2]
      exact ⟨rfl, rfl⟩
    · rw [outsAt0_B m c ⟨n + 1, h⟩ h0 h1]
      dsimp only
      rw [mid_total1, mid_total2]
      simp only [Nat.add_sub_cancel]
      rw [ih.1, ih.2]
      exact ⟨rfl, rfl⟩

/-- The last point. -/
abbrev tLast : Fin cfg0.N := ⟨3, by rw [show cfg0.N = 4 from N_0]; decide⟩

/-- After the last point the three output buffers hold the weighted sum and the two quotients of the totals. -/
theorem outs_last (c : Dev nD) :
    (outsAt0 m c 3 tLast.isLt).1 = k0_pay4 (tot1 m c 3 tLast.isLt) (tot2 m c 3 tLast.isLt)
    ∧ (outsAt0 m c 3 tLast.isLt).2.1 = k0_pay2 (tot1 m c 3 tLast.isLt)
    ∧ (outsAt0 m c 3 tLast.isLt).2.2.1 = k0_pay3 (tot2 m c 3 tLast.isLt) := by
  have ih := scratch_eq m c 2 (Nat.lt_of_succ_lt tLast.isLt)
  rw [outsAt0_C m c tLast (by decide) (by decide)]
  dsimp only
  rw [last_out5, last_out6, last_out7]
  simp only [Nat.reduceSub]
  rw [ih.1, ih.2]
  exact ⟨rfl, rfl, rfl⟩

end Cert.KernelIdeal.Fold

end
-- ==== Proof.KernelOuts.lean ====
/-
  The three result arrays of the kernel: each is one number, stored once, at the last grid point, and written back
  there; so each ends holding what the last point stored — the weighted sum and the two quotients of the running totals
  after the last point.
-/
import proofs.«169432_j69655779607183_2_alg».proof.Proof.Gen.KernelIdeal.Frame
import Idealize.ShloMosaic.Lib.Pipeline.Value
import Idealize.ShloMosaic.Lib.Tactic
import proofs.«169432_j69655779607183_2_alg».proof.Proof.KernelFold

noncomputable section

open Idealize.ShloMosaic Idealize.ShloMosaic.TcCoe Idealize.SL.Sem
open Idealize.ShloMosaic.Pipeline (Dat)

namespace Cert.KernelIdeal.Outs
open Cert.KernelIdeal Cert.KernelIdeal.Gen Cert.KernelIdeal.Fold
variable {F : FTy → Type} [FloatOps F]
variable (m : (ℓ : Loc nD τ sig) → Buf (Elt F) ℓ)

/-- What output window 5's array holds in the end. -/
abbrev res5 (c : Dev nD) : Buf (Elt F) ((c : Thread nD τ).loc main_v29_0) := k0_pay4 (tot1 m c 3 tLast.isLt) (tot2 m c 3 tLast.isLt)

/-- The one write-back of window 5, at the last point, writes it: the block is the whole 1 x 1 array. -/
theorem flushed5 (c : Dev nD) (t : Fin cfg0.N) (hf : (cfg0.win 5).flush t = true) :
    (dats m 0 c).flushed 5 t = ((cfg0.win 5).blk t).view.read (Elt F) (res5 m c) := by
  have hN : cfg0.N = 4 := N_0
  have h3 : t.val = 3 := by have := (flush0_5 t).mp hf; have := t.isLt; omega
  obtain rfl : t = t0_3 := Fin.ext h3
  show (cfg0.win 5).cut (grid0.coords t0_3) ((dats m 0 c).after 5 t0_3) = _
  rw [after0_5]
  rw [show (outsAt0 m c t0_3.val t0_3.isLt).1 = res5 m c from (outs_last m c).1]
  have hz' : (fun a => win0_5.index t0_3 a * main_v29_0.ty.shape.size a) = fun _ => 0 := funext fun a => by fin_cases a <;> decide
  exact (Memref.read_access_unit_zero (Elt F) main_v29_0 hz' (fun a => by rw [congrFun hz' a]; simp) (res5 m c)).symm

/-- So window 5's array ends holding it. -/
theorem final5 (c : Dev nD) : (dats m 0 c).arrAt 5 cfg0.N = res5 m c :=
  (dats m 0 c).arrAt_eq_of_cover 5 (res5 m c) (flushed5 m c) fun i =>
    ⟨t0_3, (flush0_5 t0_3).mpr rfl, by
      show i ∈ ((View.whole main_v29_0).slice (win0_5.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_3 0 * win0_5.size 0 ≤ (i 0 : Nat) ∧ (i 0 : Nat) < win0_5.index t0_3 0 * win0_5.size 0 + win0_5.xsize (grid0.coords t0_3) 0
                  rw [show win0_5.index t0_3 0 * win0_5.size 0 = 0 from by decide +kernel, show win0_5.xsize (grid0.coords t0_3) 0 = 1 from by decide +kernel]; omega
      | ⟨1, _⟩ => show win0_5.index t0_3 1 * win0_5.size 1 ≤ (i 1 : Nat) ∧ (i 1 : Nat) < win0_5.index t0_3 1 * win0_5.size 1 + win0_5.xsize (grid0.coords t0_3) 1
                  rw [show win0_5.index t0_3 1 * win0_5.size 1 = 0 from by decide +kernel, show win0_5.xsize (grid0.coords t0_3) 1 = 1 from by decide +kernel]; omega⟩

/-- What output window 6's array holds in the end. -/
abbrev res6 (c : Dev nD) : Buf (Elt F) ((c : Thread nD τ).loc main_v29_1) := k0_pay2 (tot1 m c 3 tLast.isLt)

/-- The one write-back of window 6, at the last point, writes it: the block is the whole 1 x 1 array. -/
theorem flushed6 (c : Dev nD) (t : Fin cfg0.N) (hf : (cfg0.win 6).flush t = true) :
    (dats m 0 c).flushed 6 t = ((cfg0.win 6).blk t).view.read (Elt F) (res6 m c) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6]
  rw [show (outsAt0 m c t0_3.val t0_3.isLt).2.1 = res6 m c from (outs_last m c).2.1]
  have hz' : (fun a => win0_6.index t0_3 a * main_v29_1.ty.shape.size a) = fun _ => 0 := funext fun a => by fin_cases a <;> decide
  exact (Memref.read_access_unit_zero (Elt F) main_v29_1 hz' (fun a => by rw [congrFun hz' a]; simp) (res6 m c)).symm

/-- So window 6's array ends holding it. -/
theorem final6 (c : Dev nD) : (dats m 0 c).arrAt 6 cfg0.N = res6 m c :=
  (dats m 0 c).arrAt_eq_of_cover 6 (res6 m c) (flushed6 m c) fun i =>
    ⟨t0_3, (flush0_6 t0_3).mpr rfl, by
      show i ∈ ((View.whole main_v29_1).slice (win0_6.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_6.index t0_3 0 * win0_6.size 0 ≤ (i 0 : Nat) ∧ (i 0 : Nat) < win0_6.index t0_3 0 * win0_6.size 0 + win0_6.xsize (grid0.coords t0_3) 0
                  rw [show win0_6.index t0_3 0 * win0_6.size 0 = 0 from by decide +kernel, show win0_6.xsize (grid0.coords t0_3) 0 = 1 from by decide +kernel]; omega
      | ⟨1, _⟩ => show win0_6.index t0_3 1 * win0_6.size 1 ≤ (i 1 : Nat) ∧ (i 1 : Nat) < win0_6.index t0_3 1 * win0_6.size 1 + win0_6.xsize (grid0.coords t0_3) 1
                  rw [show win0_6.index t0_3 1 * win0_6.size 1 = 0 from by decide +kernel, show win0_6.xsize (grid0.coords t0_3) 1 = 1 from by decide +kernel]; omega⟩

/-- What output window 7's array holds in the end. -/
abbrev res7 (c : Dev nD) : Buf (Elt F) ((c : Thread nD τ).loc main_v29_2) := k0_pay3 (tot2 m c 3 tLast.isLt)

/-- The one write-back of window 7, at the last point, writes it: the block is the whole 1 x 1 array. -/
theorem flushed7 (c : Dev nD) (t : Fin cfg0.N) (hf : (cfg0.win 7).flush t = true) :
    (dats m 0 c).flushed 7 t = ((cfg0.win 7).blk t).view.read (Elt F) (res7 m c) := by
  have hN : cfg0.N = 4 := N_0
  have h3 : t.val = 3 := by have := (flush0_7 t).mp hf; have := t.isLt; omega
  obtain rfl : t = t0_3 := Fin.ext h3
  show (cfg0.win 7).cut (grid0.coords t0_3) ((dats m 0 c).after 7 t0_3) = _
  rw [after0_7]
  rw [show (outsAt0 m c t0_3.val t0_3.isLt).2.2.1 = res7 m c from (outs_last m c).2.2]
  have hz' : (fun a => win0_7.index t0_3 a * main_v29_2.ty.shape.size a) = fun _ => 0 := funext fun a => by fin_cases a <;> decide
  exact (Memref.read_access_unit_zero (Elt F) main_v29_2 hz' (fun a => by rw [congrFun hz' a]; simp) (res7 m c)).symm

/-- So window 7's array ends holding it. -/
theorem final7 (c : Dev nD) : (dats m 0 c).arrAt 7 cfg0.N = res7 m c :=
  (dats m 0 c).arrAt_eq_of_cover 7 (res7 m c) (flushed7 m c) fun i =>
    ⟨t0_3, (flush0_7 t0_3).mpr rfl, by
      show i ∈ ((View.whole main_v29_2).slice (win0_7.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_7.index t0_3 0 * win0_7.size 0 ≤ (i 0 : Nat) ∧ (i 0 : Nat) < win0_7.index t0_3 0 * win0_7.size 0 + win0_7.xsize (grid0.coords t0_3) 0
                  rw [show win0_7.index t0_3 0 * win0_7.size 0 = 0 from by decide +kernel, show win0_7.xsize (grid0.coords t0_3) 0 = 1 from by decide +kernel]; omega
      | ⟨1, _⟩ => show win0_7.index t0_3 1 * win0_7.size 1 ≤ (i 1 : Nat) ∧ (i 1 : Nat) < win0_7.index t0_3 1 * win0_7.size 1 + win0_7.xsize (grid0.coords t0_3) 1
                  rw [show win0_7.index t0_3 1 * win0_7.size 1 = 0 from by decide +kernel, show win0_7.xsize (grid0.coords t0_3) 1 = 1 from by decide +kernel]; omega⟩

end Cert.KernelIdeal.Outs

end
-- ==== Proof.KernelRun.lean ====
/-
  The whole kernel program, run: after the host lines, the kernel over its four grid points and the three host lines that
  turn each 1 x 1 result into a scalar, the three results hold the weighted sum and the two quotients of the running
  totals, and the four arguments are as they were.
-/
import proofs.«169432_j69655779607183_2_alg».proof.Proof.Gen.KernelIdeal.Frame
import Idealize.ShloMosaic.Lib.Pipeline.Value
import Idealize.ShloMosaic.Lib.Tactic
import Idealize.ShloMosaic.Lib.StableHlo.Run
import proofs.«169432_j69655779607183_2_alg».proof.Proof.KernelOuts

noncomputable section

open Idealize.ShloMosaic Idealize.ShloMosaic.TcCoe Idealize.SL.Sem
open Idealize.ShloMosaic.Pipeline (Dat)

namespace Cert.KernelIdeal.Run
open Cert.KernelIdeal Cert.KernelIdeal.Gen Cert.KernelIdeal.Fold Cert.KernelIdeal.Outs
variable {F : FTy → Type} [FloatOps F]
variable (m : (ℓ : Loc nD τ sig) → Buf (Elt F) ℓ) (ρ : Dev nD → PrngReg)

/-- The host line after the kernel that drops the two unit axes of result 0. -/
theorem tail5 (c : Dev nD) :
    Pipeline.afterTail₀ cfgs (dats m) 0 (V0 m) [hostOps1] c main_v30 = shapeCast S_ (res5 m c) Facts₀.shapeCasts_S1x1_S_ := by
  unfold Pipeline.afterTail₀
  show StableHlo.after hostOps1 _ (Proc.devRef .tc main_v30) = _
  after_results
  rw [show Pipeline.withArrays (cfgs 0).spec c (V0 m c) (fun w => (dats m 0 c).arrAt w (cfgs 0).N) (Proc.devRef .tc main_v29_0) = res5 m c from
    (Pipeline.withArrays_arr spec0 launch0.win.arr_inj c _ _ 5).trans (final5 m c)]
  rfl

/-- The host line after the kernel that drops the two unit axes of result 1. -/
theorem tail6 (c : Dev nD) :
    Pipeline.afterTail₀ cfgs (dats m) 0 (V0 m) [hostOps1] c main_v31 = shapeCast S_ (res6 m c) Facts₀.shapeCasts_S1x1_S_ := by
  unfold Pipeline.afterTail₀
  show StableHlo.after hostOps1 _ (Proc.devRef .tc main_v31) = _
  after_results
  rw [show Pipeline.withArrays (cfgs 0).spec c (V0 m c) (fun w => (dats m 0 c).arrAt w (cfgs 0).N) (Proc.devRef .tc main_v29_1) = res6 m c from
    (Pipeline.withArrays_arr spec0 launch0.win.arr_inj c _ _ 6).trans (final6 m c)]
  rfl

/-- The host line after the kernel that drops the two unit axes of result 2. -/
theorem tail7 (c : Dev nD) :
    Pipeline.afterTail₀ cfgs (dats m) 0 (V0 m) [hostOps1] c main_v32 = shapeCast S_ (res7 m c) Facts₀.shapeCasts_S1x1_S_ := by
  unfold Pipeline.afterTail₀
  show StableHlo.after hostOps1 _ (Proc.devRef .tc main_v32) = _
  after_results
  rw [show Pipeline.withArrays (cfgs 0).spec c (V0 m c) (fun w => (dats m 0 c).arrAt w (cfgs 0).N) (Proc.devRef .tc main_v29_2) = res7 m c from
    (Pipeline.withArrays_arr spec0 launch0.win.arr_inj c _ _ 7).trans (final7 m c)]
  rfl

/-- The run, read at the three results and the four arguments. -/
theorem run : θ_run defs (onTc (τ := τ) (main (F := F))) ⟨m, fun _ => 0, ρ⟩ fun r => ∀ c : Dev nD,
      r.2.mem ((c.tc : Thread nD τ).loc main_v30) = shapeCast S_ (res5 m c) Facts₀.shapeCasts_S1x1_S_
      ∧ r.2.mem ((c.tc : Thread nD τ).loc main_v31) = shapeCast S_ (res6 m c) Facts₀.shapeCasts_S1x1_S_
      ∧ r.2.mem ((c.tc : Thread nD τ).loc main_v32) = shapeCast S_ (res7 m c) Facts₀.shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v30 (Pipeline.mem_restRefs_of main_v30 (by decide) (by decide))).trans (tail5 m c),
     ((h c).2 main_v31 (Pipeline.mem_restRefs_of main_v31 (by decide) (by decide))).trans (tail6 m c),
     ((h c).2 main_v32 (Pipeline.mem_restRefs_of main_v32 (by decide) (by decide))).trans (tail7 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Run

end
-- ==== Proof.Lanes.lean ====
/-
  The 102400 padded lanes as four tiles of 25600: lane j of tile t is lane 25600 * t + j.
-/
import Mathlib.Data.Fin.Basic

namespace Cert.Bridge.Lanes

/-- Lane j of tile t among the 102400 padded lanes. -/
def lane (t : Fin 4) (j : Fin 25600) : Fin 102400 := ⟨25600 * t.val + j.val, by omega⟩

theorem lane_val (t : Fin 4) (j : Fin 25600) : (lane t j).val = 25600 * t.val + j.val := rfl

end Cert.Bridge.Lanes
-- ==== Proof.KernelBlocks.lean ====
/-
  A window's block at a grid point is a tile of its array: block entry (r, j) at point t is the array's entry
  (r, 25600 * t + j).
-/
import proofs.«169432_j69655779607183_2_alg».proof.Proof.Gen.KernelIdeal.Frame
import Idealize.ShloMosaic.Lib.Pipeline.Value
import Idealize.ShloMosaic.Lib.Tactic
import Idealize.ShloMosaic.Lib.ValueIdx
import proofs.«169432_j69655779607183_2_alg».proof.Proof.Lanes

noncomputable section

open Idealize.ShloMosaic Idealize.ShloMosaic.TcCoe Idealize.SL.Sem
open Idealize.ShloMosaic.Pipeline (Dat)

namespace Cert.KernelIdeal.Blocks
open Cert.KernelIdeal Cert.KernelIdeal.Gen Idealize.ShloMosaic.ValueIdx Cert.Bridge
variable {F : FTy → Type} [FloatOps F]
variable (m : (ℓ : Loc nD τ sig) → Buf (Elt F) ℓ)

/-- Window 0's block at point t, entry (r, j), is its array's entry (r, lane j of tile t). -/
theorem block0_apply (c : Dev nD) (t : Fin cfg0.N) (r : Fin 3) (j : Fin 25600) :
    (iblk m c 0 t : Vec F S3x25600 .f32) (ix2 r j) = (V m c main_v20 : S3x102400.Idx → F .f32) (ix2 r (Lanes.lane (Fin.cast N_0 t) j)) := by
  have hi : win0_0.index t 0 = 0 ∧ win0_0.index t 1 = t.val := by
    rcases fin_N0 t with rfl | rfl | rfl | rfl <;> decide
  unfold iblk
  rw [View.read_apply]
  show V m c main_v20 _ = V m c main_v20 _
  congr 1
  funext a
  apply Fin.ext
  match a with
  | ⟨0, _⟩ => show win0_0.index t 0 * 3 + 1 * r.val = r.val; rw [hi.1]; omega
  | ⟨1, _⟩ => show win0_0.index t 1 * 25600 + 1 * j.val = 25600 * t.val + j.val; rw [hi.2]; omega

/-- Window 1's block at point t, entry (r, j), is its array's entry (r, lane j of tile t). -/
theorem block1_apply (c : Dev nD) (t : Fin cfg0.N) (r : Fin 3) (j : Fin 25600) :
    (iblk m c 1 t : Vec F S3x25600 .f32) (ix2 r j) = (V m c main_v22 : S3x102400.Idx → F .f32) (ix2 r (Lanes.lane (Fin.cast N_0 t) j)) := by
  have hi : win0_1.index t 0 = 0 ∧ win0_1.index t 1 = t.val := by
    rcases fin_N0 t with rfl | rfl | rfl | rfl <;> decide
  unfold iblk
  rw [View.read_apply]
  show V m c main_v22 _ = V m c main_v22 _
  congr 1
  funext a
  apply Fin.ext
  match a with
  | ⟨0, _⟩ => show win0_1.index t 0 * 3 + 1 * r.val = r.val; rw [hi.1]; omega
  | ⟨1, _⟩ => show win0_1.index t 1 * 25600 + 1 * j.val = 25600 * t.val + j.val; rw [hi.2]; omega

/-- Window 2's block at point t, entry (r, j), is its array's entry (r, lane j of tile t). -/
theorem block2_apply (c : Dev nD) (t : Fin cfg0.N) (r : Fin 3) (j : Fin 25600) :
    (iblk m c 2 t : Vec F S3x25600 .f32) (ix2 r j) = (V m c main_v24 : S3x102400.Idx → F .f32) (ix2 r (Lanes.lane (Fin.cast N_0 t) j)) := by
  have hi : win0_2.index t 0 = 0 ∧ win0_2.index t 1 = t.val := by
    rcases fin_N0 t with rfl | rfl | rfl | rfl <;> decide
  unfold iblk
  rw [View.read_apply]
  show V m c main_v24 _ = V m c main_v24 _
  congr 1
  funext a
  apply Fin.ext
  match a with
  | ⟨0, _⟩ => show win0_2.index t 0 * 3 + 1 * r.val = r.val; rw [hi.1]; omega
  | ⟨1, _⟩ => show win0_2.index t 1 * 25600 + 1 * j.val = 25600 * t.val + j.val; rw [hi.2]; omega

/-- Window 3's block at point t, entry (r, j), is its array's entry (r, lane j of tile t). -/
theorem block3_apply (c : Dev nD) (t : Fin cfg0.N) (r : Fin 1) (j : Fin 25600) :
    (iblk m c 3 t : Vec F S1x25600 .f32) (ix2 r j) = (V m c main_v26 : S1x102400.Idx → F .f32) (ix2 r (Lanes.lane (Fin.cast N_0 t) j)) := by
  have hi : win0_3.index t 0 = 0 ∧ win0_3.index t 1 = t.val := by
    rcases fin_N0 t with rfl | rfl | rfl | rfl <;> decide
  unfold iblk
  rw [View.read_apply]
  show V m c main_v26 _ = V m c main_v26 _
  congr 1
  funext a
  apply Fin.ext
  match a with
  | ⟨0, _⟩ => show win0_3.index t 0 * 1 + 1 * r.val = r.val; rw [hi.1]; omega
  | ⟨1, _⟩ => show win0_3.index t 1 * 25600 + 1 * j.val = 25600 * t.val + j.val; rw [hi.2]; omega

/-- Window 4's block at point t, entry (r, j), is its array's entry (r, lane j of tile t). -/
theorem block4_apply (c : Dev nD) (t : Fin cfg0.N) (r : Fin 3) (j : Fin 25600) :
    (iblk m c 4 t : Vec F S3x25600 .f32) (ix2 r j) = (V m c main_v28 : S3x102400.Idx → F .f32) (ix2 r (Lanes.lane (Fin.cast N_0 t) j)) := by
  have hi : win0_4.index t 0 = 0 ∧ win0_4.index t 1 = t.val := by
    rcases fin_N0 t with rfl | rfl | rfl | rfl <;> decide
  unfold iblk
  rw [View.read_apply]
  show V m c main_v28 _ = V m c main_v28 _
  congr 1
  funext a
  apply Fin.ext
  match a with
  | ⟨0, _⟩ => show win0_4.index t 0 * 3 + 1 * r.val = r.val; rw [hi.1]; omega
  | ⟨1, _⟩ => show win0_4.index t 1 * 25600 + 1 * j.val = 25600 * t.val + j.val; rw [hi.2]; omega

end Cert.KernelIdeal.Blocks

end
-- ==== Proof.HostTerms.lean ====
/-
  The arrays the kernel's five input windows are cut from, as functions of the program's arguments.

  Each is a node array turned sideways (coordinates along the rows, nodes along the lanes) and continued with 2400 lanes
  of the zero the host converts from the integer 0.  The node arrays are: the predicted coordinates, the ground truth, the
  difference d = predicted - input, and two column bands of one table of four columns.  That table is built by adding,
  for every edge, a row of four numbers into the row of the edge's target word: the three coordinates of d at the edge's
  source row (the source word shifted if negative, then clamped) followed by a one.  Its first three columns are the sums
  of d over the sources of the edges into each node; its last column counts those edges.
-/
import proofs.«169432_j69655779607183_2_alg».proof.Proof.Gen.KernelIdeal

noncomputable section

namespace Cert.KernelIdeal.HostTerms

open Idealize.ShloMosaic Idealize.SL.Sem Cert.KernelIdeal Cert.KernelIdeal.Facts₀

variable {F : FTy → Type} [FloatOps F]

/-- The padding value: the integer 0 converted to a float. -/
def padValue : FVec F S_ .f32 := sitofp .f32 (constantI S_ 32 0#32)

/-- A node array [100000, 3] turned to [3, 100000] and continued with 2400 lanes of the padding value. -/
def padT3 (x : FVec F S100000x3 .f32) : FVec F S3x102400 .f32 :=
  pad S3x102400 ![0, 0] ![0, 2400] ![0, 0] (transpose S3x100000 [1, 0] x transposes_S100000x3_S3x100000_1_0)
    (padValue (F := F)) pads_S3x100000_S3x102400_000_024000 h_S_

/-- The same for a one-column node array [100000, 1]. -/
def padT1 (x : FVec F S100000x1 .f32) : FVec F S1x102400 .f32 :=
  pad S1x102400 ![0, 0] ![0, 2400] ![0, 0] (transpose S1x100000 [1, 0] x transposes_S100000x1_S1x100000_1_0)
    (padValue (F := F)) pads_S1x100000_S1x102400_000_024000 h_S_

/-- The edges' source words (row 0 of the edge array). -/
def srcs (ei : IVec S2x3200000 32) : IVec S3200000 32 :=
  shapeCast S3200000 (extractStridedSlice S1x3200000 ![0, 0] ei slices_S2x3200000_S1x3200000_0_0) shapeCasts_S1x3200000_S3200000

/-- The edges' target words (row 1 of the edge array). -/
def dsts (ei : IVec S2x3200000 32) : IVec S3200000 32 :=
  shapeCast S3200000 (extractStridedSlice S1x3200000 ![1, 0] ei slices_S2x3200000_S1x3200000_1_0) shapeCasts_S1x3200000_S3200000

/-- Index words with the negative ones shifted up by the number of nodes. -/
def shifted (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- Per edge: d at the edge's source row, then a one. -/
def edgeRows (p i : FVec F S100000x3 .f32) (ei : IVec S2x3200000 32) : FVec F S3200000x4 .f32 :=
  concatenate S3200000x4 1
    [⟨S3200000x3, Host.gather gather_S100000x3_S3200000x1_S3200000x3_1_0_n_n_0_1_13 (subf p i)
        (broadcastInDim S3200000x1 ![0] bcast_S3200000_S3200000x1_0 (shifted (srcs ei)))⟩,
     ⟨S3200000x1, broadcastInDim S3200000x1 ![] bcast_S_S3200000x1 (constant S_ .f32 0x3F800000#32)⟩]
    concatenates_S3200000x3_S3200000x1_S3200000x4_d1

/-- The four-column table: the edge rows added into a zero table at the edges' target words. -/
def table4 (p i : FVec F S100000x3 .f32) (ei : IVec S2x3200000 32) : FVec F S100000x4 .f32 :=
  Host.scatterAdd scatter_S100000x4_S3200000x1_S3200000x4_1_0_0_1
    (broadcastInDim S100000x4 ![] bcast_S_S100000x4 (constant S_ .f32 0x00000000#32))
    (broadcastInDim S3200000x1 ![0] bcast_S3200000_S3200000x1_0 (dsts ei)) (edgeRows p i ei)

/-- Its first three columns: the sums of d over the sources of the edges into each node. -/
def sums3 (p i : FVec F S100000x3 .f32) (ei : IVec S2x3200000 32) : FVec F S100000x3 .f32 :=
  extractStridedSlice S100000x3 ![0, 0] (table4 p i ei) slices_S100000x4_S100000x3_0_0

/-- Its last column: the number of edges into each node. -/
def count1 (p i : FVec F S100000x3 .f32) (ei : IVec S2x3200000 32) : FVec F S100000x1 .f32 :=
  extractStridedSlice S100000x1 ![0, 3] (table4 p i ei) slices_S100000x4_S100000x1_0_3

end Cert.KernelIdeal.HostTerms

end
-- ==== Proof.HostArraysA.lean ====
/-
  What the kernel's first three input windows are cut from when the kernel starts: the predicted coordinates, the ground
  truth and the difference d = predicted - input, each turned sideways and padded (the host lines before the kernel,
  evaluated).
-/
import proofs.«169432_j69655779607183_2_alg».proof.Proof.Gen.KernelIdeal.Frame
import Idealize.ShloMosaic.Lib.Pipeline.Value
import Idealize.ShloMosaic.Lib.Tactic
import Idealize.ShloMosaic.Lib.StableHlo.Run
import proofs.«169432_j69655779607183_2_alg».proof.Proof.HostTerms

noncomputable section

open Idealize.ShloMosaic Idealize.ShloMosaic.TcCoe Idealize.SL.Sem
open Idealize.ShloMosaic.Pipeline (Dat)

namespace Cert.KernelIdeal.HostArraysA
open Cert.KernelIdeal Cert.KernelIdeal.Gen Cert.KernelIdeal.HostTerms
variable {F : FTy → Type} [FloatOps F]
variable (m : (ℓ : Loc nD τ sig) → Buf (Elt F) ℓ)

set_option maxHeartbeats 8000000 in
/-- Window 0's array: the predicted coordinates, turned and padded. -/
theorem win0_array (c : Dev nD) : (V m c main_v20 : S3x102400.Idx → F .f32) = padT3 (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

set_option maxHeartbeats 8000000 in
/-- Window 1's array: the ground truth, turned and padded. -/
theorem win1_array (c : Dev nD) : (V m c main_v22 : S3x102400.Idx → F .f32) = padT3 (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

set_option maxHeartbeats 8000000 in
/-- Window 2's array: predicted minus input, turned and padded. -/
theorem win2_array (c : Dev nD) : (V m c main_v24 : S3x102400.Idx → F .f32) = padT3 (subf (m ((c : Thread nD τ).loc main_arg0)) (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

end Cert.KernelIdeal.HostArraysA

end
-- ==== Proof.HostArraysB.lean ====
/-
  What the kernel's last two input windows are cut from when the kernel starts: the edge counts and the sums of d over
  the sources of the edges into each node, each turned sideways and padded (the host lines before the kernel, evaluated).
-/
import proofs.«169432_j69655779607183_2_alg».proof.Proof.Gen.KernelIdeal.Frame
import Idealize.ShloMosaic.Lib.Pipeline.Value
import Idealize.ShloMosaic.Lib.Tactic
import Idealize.ShloMosaic.Lib.StableHlo.Run
import proofs.«169432_j69655779607183_2_alg».proof.Proof.HostTerms

noncomputable section

open Idealize.ShloMosaic Idealize.ShloMosaic.TcCoe Idealize.SL.Sem
open Idealize.ShloMosaic.Pipeline (Dat)

namespace Cert.KernelIdeal.HostArraysB
open Cert.KernelIdeal Cert.KernelIdeal.Gen Cert.KernelIdeal.HostTerms
variable {F : FTy → Type} [FloatOps F]
variable (m : (ℓ : Loc nD τ sig) → Buf (Elt F) ℓ)

set_option maxHeartbeats 16000000 in
/-- Window 3's array: the number of edges into each node, turned and padded. -/
theorem win3_array (c : Dev nD) : (V m c main_v26 : S1x102400.Idx → F .f32) = padT1 (count1 (m ((c : Thread nD τ).loc main_arg0)) (m ((c : Thread nD τ).loc main_arg2)) (m ((c : Thread nD τ).loc main_arg3))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

set_option maxHeartbeats 16000000 in
/-- Window 4's array: the sums of d over the sources of the edges into each node, turned and padded. -/
theorem win4_array (c : Dev nD) : (V m c main_v28 : S3x102400.Idx → F .f32) = padT3 (sums3 (m ((c : Thread nD τ).loc main_arg0)) (m ((c : Thread nD τ).loc main_arg2)) (m ((c : Thread nD τ).loc main_arg3))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

end Cert.KernelIdeal.HostArraysB

end
-- ==== Proof.Spec.lean ====
/-
  The two mesh losses, as plain functions of the arrays.

  Nodes carry three coordinates; P are the predicted coordinates, G the ground truth, I the input coordinates, and the edge
  array holds one source word and one target word per edge.  An edge contributes to node n when its target word, read as
  a signed integer, IS n.  A node row that is looked up (a gather) first has a negative word shifted up by the number of
  nodes and is then clamped into the table: `row`.

  * `l1Sum P G` is the sum over nodes and coordinates of |P - G|.
  * `refLapEntry` is the difference of the two graph Laplacians at (n, c), each the sum over the edges into n of
    "target row minus source row";  `refLapSum` sums its absolute values.
  * `kerLapEntry` is the same quantity regrouped: the number of edges into n times d(n, c), minus the sum over those
    edges of d at the source row, with d = P - I;  `kerLapSum` sums its absolute values.
  * `mean` divides by the literal 300000 and `total` is mean a + 0.5 * mean b, both literals kept as their words.
-/
import Idealize.ShloMosaic.PureOps.Ideal
import Idealize.ShloMosaic.Lib.ValueIdx

noncomputable section

open scoped BigOperators

namespace Cert.Bridge.LapLoss

open Idealize.ShloMosaic Idealize.ShloMosaic.ValueIdx

/-- Node table: 100000 nodes, 3 coordinates. -/
abbrev SNode : Shape := ⟨2, ![100000, 3]⟩
/-- Edge array: row 0 the sources, row 1 the targets, 3200000 edges. -/
abbrev SEdge : Shape := ⟨2, ![2, 3200000]⟩

/-- The absolute value of an extended real, as the float operation computes it. -/
def absE (a : EReal) : EReal := max a (-a)

/-- Sum over nodes and coordinates of |P - G|. -/
def l1Sum (P G : SNode.Idx → EReal) : EReal :=
  ∑ n : Fin 100000, ∑ c : Fin 3, absE (P (ix2 n c) - G (ix2 n c))

/-- Edge e's source word. -/
def srcW (ei : IVec SEdge 32) (e : Fin 3200000) : BitVec 32 := ei (ix2 (0 : Fin 2) e)
/-- Edge e's target word. -/
def dstW (ei : IVec SEdge 32) (e : Fin 3200000) : BitVec 32 := ei (ix2 (1 : Fin 2) e)

/-- A negative index word is shifted up by the number of nodes. -/
def wrap (v : BitVec 32) : BitVec 32 := Scalar.select (IntOp.cmpi .slt v 0#32) (IntOp.addi v 100000#32) v

/-- The table row a lookup with index word v reads: the shifted word, signed, clamped into the table. -/
def row (v : BitVec 32) : Fin 100000 := ⟨min (wrap v).toInt.toNat (100000 - 1), by omega⟩

/-- The edges whose target word, read signed, is node n. -/
def into (ei : IVec SEdge 32) (n : Fin 100000) : Finset (Fin 3200000) :=
  Finset.univ.filter fun e => (dstW ei e).toInt = (n.val : ℤ)

/-- Laplacian of X at (n, c): over the edges into n, X at the target's row minus X at the source's row. -/
def lapEntry (X : SNode.Idx → EReal) (ei : IVec SEdge 32) (n : Fin 100000) (c : Fin 3) : EReal :=
  ∑ e ∈ into ei n, (X (ix2 (row (dstW ei e)) c) - X (ix2 (row (srcW ei e)) c))

/-- The reference's Laplacian difference at (n, c). -/
def refLapEntry (P I : SNode.Idx → EReal) (ei : IVec SEdge 32) (n : Fin 100000) (c : Fin 3) : EReal :=
  lapEntry P ei n c - lapEntry I ei n c

/-- Sum over nodes and coordinates of the absolute Laplacian difference, as the reference groups it. -/
def refLapSum (P I : SNode.Idx → EReal) (ei : IVec SEdge 32) : EReal :=
  ∑ n : Fin 100000, ∑ c : Fin 3, absE (refLapEntry P I ei n c)

/-- The number of edges into n, as the float sum of ones that counts them. -/
def countInto (ei : IVec SEdge 32) (n : Fin 100000) : EReal := ∑ _e ∈ into ei n, (1 : EReal)

/-- The kernel's regrouping at (n, c): count(n) * d(n, c) minus the sum over the edges into n of d at the source row. -/
def kerLapEntry (P I : SNode.Idx → EReal) (ei : IVec SEdge 32) (n : Fin 100000) (c : Fin 3) : EReal :=
  countInto ei n * (P (ix2 n c) - I (ix2 n c))
    - ∑ e ∈ into ei n, (P (ix2 (row (srcW ei e)) c) - I (ix2 (row (srcW ei e)) c))

/-- Sum over nodes and coordinates of its absolute value. -/
def kerLapSum (P I : SNode.Idx → EReal) (ei : IVec SEdge 32) : EReal :=
  ∑ n : Fin 100000, ∑ c : Fin 3, absE (kerLapEntry P I ei n c)

/-- A sum divided by the literal 300000 (kept as its word). -/
def mean (s : EReal) : EReal := Ideal.div s (Ideal.ofBits .f32 0x48927C00#32)

/-- mean a + 0.5 * mean b, the half kept as its word. -/
def total (a b : EReal) : EReal := mean a + Ideal.ofBits .f32 0x3F000000#32 * mean b

end Cert.Bridge.LapLoss

end
-- ==== Proof.LibColSum.lean ====
/-
  A sum down the columns of a matrix, read at an index on the extended reals: a reduction of an [n, k] matrix over
  its rows (axis 0), into the zero accumulator, is at column c the sum over the n rows of the column's entries.
  (The counterpart, along axis 0, of the lane sum over the columns of a row.)
-/
import Idealize.ShloMosaic.PureOps.Ideal.Laws
import Idealize.ShloMosaic.Lib.ValueIdx

namespace Idealize.ShloMosaic.ColSum

open Idealize.ShloMosaic Idealize.ShloMosaic.ValueIdx
open scoped BigOperators

/-- The reduced index `c` with the row `d` put back is the matrix index `(d, c)`. -/
theorem lift_cols {n k : ℕ} (h : (⟨2, ![n, k]⟩ : Shape).Reduces [0] ⟨1, ![k]⟩) (c : Fin k) (d : Fin n) :
    h.lift (ix1 c) d = ix2 d c :=
  funext fun a => Fin.ext (by match a with | ⟨0, _⟩ => rfl | ⟨1, _⟩ => rfl)

/-- A float sum over the rows of an `[n, k]` matrix, at column `c`, is the sum of the column's `n` entries. -/
theorem multiReduction_add_cols_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = FKind.add.neutral .f32 hφ) (c : Fin k) :
    multiReduction .add [0] ⟨1, ![k]⟩ src 0x00000000#32 h hφ hacc (ix1 c) = ∑ d : Fin n, src (ix2 d c) :=
  (Ideal.multiReduction_add_single src 0x00000000#32 h hφ hacc (ix1 c)).trans
    (Finset.sum_congr rfl fun d _ => congrArg src (lift_cols h c d))

end Idealize.ShloMosaic.ColSum
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.KernelPayload.lean ====
/-
  The kernel body's arithmetic, read at the one index of its [1, 1] results.

  Each payload is a composition of pointwise float operations, casts between shapes of the same size, one broadcast of a
  row, and two sums: a sum down the three rows of a [3, 25600] matrix followed, after the [25600] result is viewed as one
  row [1, 25600], by the sum along that row.  Read at (0, 0):

  * a cast to the same shape is the identity, and the casts [25600] → [1, 25600] and [1] → [1, 1] keep the entry;
  * the sum down the rows, at column j, is Σ_c w(c, j), and the sum along the one row is Σ_j of its entries, so the two
    sums together give Σ_j Σ_c w(c, j);
  * the pointwise operations are the operations of the extended reals: |a| = max a (−a), a − b, a · b, a + b, the quotient
    of the library, and a broadcast scalar is that scalar; the zero word denotes 0.

  So the two accumulating payloads add to the accumulator the sum over the block of the absolute differences, and the
  three final payloads are the mean (division by the literal 300000) and the total mean a + 0.5 · mean b.
-/
import proofs.«169432_j69655779607183_2_alg».proof.Proof.Gen.KernelIdeal.Skeleton
import proofs.«169432_j69655779607183_2_alg».proof.Proof.Spec
import proofs.«169432_j69655779607183_2_alg».proof.Proof.LibColSum
import proofs.«169432_j69655779607183_2_alg».proof.Proof.LibRowSum
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge.KernelPayload

open Idealize.ShloMosaic Idealize.ShloMosaic.ValueIdx Cert.KernelIdeal Cert.Bridge

/-! ## The two sums -/

/-- The sum down the rows of a [3, 25600] matrix, viewed as one row, summed along it and viewed as [1, 1]: at (0, 0) it
    is the sum over the columns j of the sum over the rows c of the entries. -/
theorem sumAll_apply (w : FVec Ideal S3x25600 .f32)
    (h0 : S3x25600.Reduces [0] S25600) (hφ0 : FKind.Formats .f32)
    (hacc0 : (0x00000000#32 : BitVec 32) = FKind.add.neutral .f32 hφ0)
    (hc0 : S25600.ShapeCasts S1x25600)
    (h1 : S1x25600.Reduces [1] S1) (hφ1 : FKind.Formats .f32)
    (hacc1 : (0x00000000#32 : BitVec 32) = FKind.add.neutral .f32 hφ1)
    (hc1 : S1.ShapeCasts S1x1) :
    shapeCast S1x1
        (multiReduction (F := Ideal) .add [1] S1
          (shapeCast S1x25600 (multiReduction (F := Ideal) .add [0] S25600 w 0x00000000#32 h0 hφ0 hacc0) hc0)
          0x00000000#32 h1 hφ1 hacc1)
        hc1 (ix2 (0 : Fin 1) (0 : Fin 1))
      = ∑ j : Fin 25600, ∑ c : Fin 3, w (ix2 c j) := by
  refine (shapeCast_a_1a_apply _ hc1 (0 : Fin 1) (0 : Fin 1)).trans ?_
  refine (multiReduction_add_rows_apply _ h1 hφ1 hacc1 (0 : Fin 1)).trans ?_
  refine Finset.sum_congr rfl fun j _ => ?_
  refine (shapeCast_a_1a_apply _ hc0 (0 : Fin 1) j).trans ?_
  exact ColSum.multiReduction_add_cols_apply w h0 hφ0 hacc0 j

/-! ## The payloads -/

/-- The first payload is a cast to the same shape. -/
theorem pay1_eq (v : FVec Ideal S1x1 .f32) : Gen.k0_pay1 v = v := by
  unfold Gen.k0_pay1
  exact shapeCast_self v _

/-- The fifth payload is the zero word broadcast: 0 at (0, 0). -/
theorem pay5_apply : Gen.k0_pay5 (F := Ideal) (ix2 (0 : Fin 1) (0 : Fin 1)) = 0 := by
  unfold Gen.k0_pay5
  rw [shapeCast_self]
  exact Ideal.ofBits_zero_f32

/-- The sixth payload likewise. -/
theorem pay6_apply : Gen.k0_pay6 (F := Ideal) (ix2 (0 : Fin 1) (0 : Fin 1)) = 0 := by
  unfold Gen.k0_pay6
  rw [shapeCast_self]
  exact Ideal.ofBits_zero_f32

/-- The seventh payload adds to the accumulator the sum over the block of |x0 − x1|. -/
theorem pay7_apply (x0 x1 : Vec Ideal S3x25600 .f32) (acc : Vec Ideal S1x1 .f32) :
    Gen.k0_pay7 x0 x1 acc (ix2 (0 : Fin 1) (0 : Fin 1))
      = acc (ix2 (0 : Fin 1) (0 : Fin 1))
        + ∑ j : Fin 25600, ∑ c : Fin 3, LapLoss.absE (x0 (ix2 c j) - x1 (ix2 c j)) := by
  unfold Gen.k0_pay7
  dsimp only
  rw [shapeCast_self, shapeCast_self, shapeCast_self, addf_apply]
  refine congrArg (acc (ix2 (0 : Fin 1) (0 : Fin 1)) + ·) ?_
  refine (sumAll_apply _ _ _ _ _ _ _ _ _).trans ?_
  rfl

/-- The eighth payload adds to the accumulator the sum over the block of |x3 · x2 − x4|, x3 one row broadcast over the
    three. -/
theorem pay8_apply (x2 : Vec Ideal S3x25600 .f32) (x3 : Vec Ideal S1x25600 .f32) (x4 : Vec Ideal S3x25600 .f32)
    (acc : Vec Ideal S1x1 .f32) :
    Gen.k0_pay8 x2 x3 x4 acc (ix2 (0 : Fin 1) (0 : Fin 1))
      = acc (ix2 (0 : Fin 1) (0 : Fin 1))
        + ∑ j : Fin 25600, ∑ c : Fin 3, LapLoss.absE (x3 (ix2 (0 : Fin 1) j) * x2 (ix2 c j) - x4 (ix2 c j)) := by
  unfold Gen.k0_pay8
  dsimp only
  rw [shapeCast_self, shapeCast_self, shapeCast_self, addf_apply]
  refine congrArg (acc (ix2 (0 : Fin 1) (0 : Fin 1)) + ·) ?_
  refine (sumAll_apply _ _ _ _ _ _ _ _ _).trans ?_
  refine Finset.sum_congr rfl fun j _ => Finset.sum_congr rfl fun c _ => ?_
  show LapLoss.absE (broadcastTo S3x25600 x3 _ (ix2 c j) * x2 (ix2 c j) - x4 (ix2 c j)) = _
  rw [broadcastTo_1b_ab_apply]

/-- The second payload is the mean of its operand. -/
theorem pay2_apply (v : Vec Ideal S1x1 .f32) :
    Gen.k0_pay2 v (ix2 (0 : Fin 1) (0 : Fin 1)) = LapLoss.mean (v (ix2 (0 : Fin 1) (0 : Fin 1))) := rfl

/-- The third payload is the mean of its operand. -/
theorem pay3_apply (v : Vec Ideal S1x1 .f32) :
    Gen.k0_pay3 v (ix2 (0 : Fin 1) (0 : Fin 1)) = LapLoss.mean (v (ix2 (0 : Fin 1) (0 : Fin 1))) := rfl

/-- The fourth payload is the total: mean of the first plus one half of the mean of the second. -/
theorem pay4_apply (v40 v43 : Vec Ideal S1x1 .f32) :
    Gen.k0_pay4 v40 v43 (ix2 (0 : Fin 1) (0 : Fin 1))
      = LapLoss.total (v40 (ix2 (0 : Fin 1) (0 : Fin 1))) (v43 (ix2 (0 : Fin 1) (0 : Fin 1))) := rfl

end Cert.Bridge.KernelPayload

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.TileSums.lean ====
/-
  Sums over the padded lanes, tile by tile.

  The 102400 padded lanes are four tiles of 25600 lanes, lane j of tile t being lane 25600 · t + j; every lane is of that
  form exactly once (division with remainder), so the double sum over tiles and lanes of a tile is the sum over all
  102400 lanes.  The lanes split at 100000 into the first 100000, where the padded function agrees with the unpadded
  one, and the last 2400, where it is 0; so the sum over all lanes is the sum over the 100000 unpadded entries.

  A running total that starts from 0 and adds four terms in turn is the sum of the four terms.

  Only commutativity and associativity of the addition and 0 + a = a are used: the statements hold in any additive
  commutative monoid, the extended reals included.
-/
import proofs.«169432_j69655779607183_2_alg».proof.Proof.Lanes
import proofs.«169432_j69655779607183_2_alg».proof.Proof.LibSumBlocks
import Mathlib.Algebra.BigOperators.Fin

open scoped BigOperators

namespace Cert.Bridge.TileSums

open Idealize.ShloMosaic Cert.Bridge

variable {M : Type*} [AddCommMonoid M]

/-- The double sum over the four tiles and the 25600 lanes of a tile is the sum over all 102400 lanes. -/
theorem sum_lanes (f : Fin 102400 → M) :
    ∑ t : Fin 4, ∑ j : Fin 25600, f (Lanes.lane t j) = ∑ n : Fin 102400, f n := by
  refine Eq.trans ?_ (SumBlocks.sum_blocks (A := 4) (B := 25600) f).symm
  refine Finset.sum_congr rfl fun t _ => Finset.sum_congr rfl fun j _ => congrArg f (Fin.ext ?_)
  show 25600 * t.val + j.val = t.val * 25600 + j.val
  rw [Nat.mul_comm]

/-- The sum over the 102400 lanes is the sum over the first 100000 plus the sum over the last 2400. -/
theorem sum_split (f : Fin 102400 → M) :
    ∑ n : Fin 102400, f n
      = ∑ i : Fin 100000, f (Fin.castAdd 2400 i) + ∑ i : Fin 2400, f (Fin.natAdd 100000 i) :=
  Fin.sum_univ_add (a := 100000) (b := 2400) f

/-- A function on the padded lanes that is g on the first 100000 lanes and 0 on the rest sums, tile by tile, to the sum
    of g. -/
theorem tiles_sum (f : Fin 102400 → M) (g : Fin 100000 → M)
    (hlt : ∀ (n : Fin 102400) (h : n.val < 100000), f n = g ⟨n.val, h⟩)
    (hge : ∀ n : Fin 102400, 100000 ≤ n.val → f n = 0) :
    ∑ t : Fin 4, ∑ j : Fin 25600, f (Lanes.lane t j) = ∑ n : Fin 100000, g n := by
  rw [sum_lanes, sum_split]
  have h1 : ∑ i : Fin 100000, f (Fin.castAdd 2400 i) = ∑ n : Fin 100000, g n :=
    Finset.sum_congr rfl fun i _ => hlt (Fin.castAdd 2400 i) i.isLt
  have h2 : ∑ i : Fin 2400, f (Fin.natAdd 100000 i) = 0 :=
    Finset.sum_eq_zero fun i _ => hge (Fin.natAdd 100000 i) (Nat.le_add_right 100000 i.val)
  rw [h1, h2, add_zero]

/-- A running total from 0 over four terms is the sum of the four terms. -/
theorem chain4 (a b c d : M) : (((0 + a) + b) + c) + d = ∑ t : Fin 4, ![a, b, c, d] t := by
  rw [Fin.sum_univ_four, zero_add]
  rfl

/-- The same for the four values of a function on the tiles. -/
theorem chain4_fun (F : Fin 4 → M) : (((0 + F 0) + F 1) + F 2) + F 3 = ∑ t : Fin 4, F t := by
  rw [Fin.sum_univ_four, zero_add]

end Cert.Bridge.TileSums
-- ==== Proof.KernelTotals.lean ====
/-
  The two running totals after the last grid point, as sums over the four tiles.

  The total after point 3 is ((((0 + tile 0) + tile 1) + tile 2) + tile 3), and tile t's contribution is the sum over its
  25600 lanes and three coordinates of the absolute differences, read off the padded arrays at lane 25600 * t + j.  The
  extended reals form a commutative monoid under addition, so the chain is the sum over the four tiles.
-/
import proofs.«169432_j69655779607183_2_alg».proof.Proof.Gen.KernelIdeal.Frame
import Idealize.ShloMosaic.Lib.Pipeline.Value
import Idealize.ShloMosaic.Lib.Tactic
import proofs.«169432_j69655779607183_2_alg».proof.Proof.KernelFold
import proofs.«169432_j69655779607183_2_alg».proof.Proof.KernelBlocks
import proofs.«169432_j69655779607183_2_alg».proof.Proof.HostArraysA
import proofs.«169432_j69655779607183_2_alg».proof.Proof.HostArraysB
import proofs.«169432_j69655779607183_2_alg».proof.Proof.KernelPayload
import proofs.«169432_j69655779607183_2_alg».proof.Proof.TileSums
import proofs.«169432_j69655779607183_2_alg».proof.Proof.Spec

noncomputable section

open Idealize.ShloMosaic Idealize.ShloMosaic.TcCoe Idealize.SL.Sem
open Idealize.ShloMosaic.Pipeline (Dat)

open scoped BigOperators

namespace Cert.KernelIdeal.Totals
open Cert.KernelIdeal Cert.KernelIdeal.Gen Cert.KernelIdeal.Fold Cert.KernelIdeal.Blocks Cert.KernelIdeal.HostTerms
open Cert.KernelIdeal.HostArraysA Cert.KernelIdeal.HostArraysB
open Idealize.ShloMosaic.ValueIdx Cert.Bridge Cert.Bridge.KernelPayload

variable (m : (ℓ : Loc nD τ sig) → Buf (Elt Ideal) ℓ)

/-- The four arguments on core c: predicted, truth, input coordinates and the edge array. -/
abbrev aP (c : Dev nD) : FVec Ideal S100000x3 .f32 := m ((c : Thread nD τ).loc main_arg0)
abbrev aG (c : Dev nD) : FVec Ideal S100000x3 .f32 := m ((c : Thread nD τ).loc main_arg1)
abbrev aI (c : Dev nD) : FVec Ideal S100000x3 .f32 := m ((c : Thread nD τ).loc main_arg2)
abbrev aE (c : Dev nD) : IVec S2x3200000 32 := m ((c : Thread nD τ).loc main_arg3)

/-- Tile t's contribution to the first total. -/
def tile1 (c : Dev nD) (t : Fin 4) : EReal :=
  ∑ j : Fin 25600, ∑ r : Fin 3,
    LapLoss.absE (padT3 (F := Ideal) (aP m c) (ix2 r (Lanes.lane t j))
      - padT3 (F := Ideal) (aG m c) (ix2 r (Lanes.lane t j)))

/-- Tile t's contribution to the second total. -/
def tile2 (c : Dev nD) (t : Fin 4) : EReal :=
  ∑ j : Fin 25600, ∑ r : Fin 3,
    LapLoss.absE (padT1 (F := Ideal) (count1 (F := Ideal) (aP m c) (aI m c) (aE m c)) (ix2 (0 : Fin 1) (Lanes.lane t j))
        * padT3 (F := Ideal) (subf (aP m c) (aI m c)) (ix2 r (Lanes.lane t j))
      - padT3 (F := Ideal) (sums3 (F := Ideal) (aP m c) (aI m c) (aE m c)) (ix2 r (Lanes.lane t j)))

/-- The sum of absolute differences of two blocks over a tile. -/
def blockSum1 (x0 x1 : Vec Ideal S3x25600 .f32) : EReal :=
  ∑ j : Fin 25600, ∑ r : Fin 3, LapLoss.absE (x0 (ix2 r j) - x1 (ix2 r j))

/-- The sum of |count * d - sums| of three blocks over a tile. -/
def blockSum2 (x2 : Vec Ideal S3x25600 .f32) (x3 : Vec Ideal S1x25600 .f32) (x4 : Vec Ideal S3x25600 .f32) : EReal :=
  ∑ j : Fin 25600, ∑ r : Fin 3, LapLoss.absE (x3 (ix2 (0 : Fin 1) j) * x2 (ix2 r j) - x4 (ix2 r j))

theorem pay7_blockSum (x0 x1 : Vec Ideal S3x25600 .f32) (acc : Vec Ideal S1x1 .f32) :
    k0_pay7 x0 x1 acc (ix2 (0 : Fin 1) (0 : Fin 1)) = acc (ix2 (0 : Fin 1) (0 : Fin 1)) + blockSum1 x0 x1 := pay7_apply x0 x1 acc

theorem pay8_blockSum (x2 : Vec Ideal S3x25600 .f32) (x3 : Vec Ideal S1x25600 .f32) (x4 : Vec Ideal S3x25600 .f32) (acc : Vec Ideal S1x1 .f32) :
    k0_pay8 x2 x3 x4 acc (ix2 (0 : Fin 1) (0 : Fin 1)) = acc (ix2 (0 : Fin 1) (0 : Fin 1)) + blockSum2 x2 x3 x4 := pay8_apply x2 x3 x4 acc

/-- The blocks of windows 0 and 1 at point t give tile t's first contribution. -/
theorem blocks_tile1 (c : Dev nD) (t : Fin cfg0.N) :
    blockSum1 (iblk m c 0 t) (iblk m c 1 t) = tile1 m c (Fin.cast N_0 t) := by
  unfold tile1 blockSum1
  refine Finset.sum_congr rfl fun j _ => Finset.sum_congr rfl fun r _ => ?_
  rw [block0_apply, block1_apply, win0_array, win1_array]

/-- The blocks of windows 2, 3 and 4 at point t give tile t's second contribution. -/
theorem blocks_tile2 (c : Dev nD) (t : Fin cfg0.N) :
    blockSum2 (iblk m c 2 t) (iblk m c 3 t) (iblk m c 4 t) = tile2 m c (Fin.cast N_0 t) := by
  unfold tile2 blockSum2
  refine Finset.sum_congr rfl fun j _ => Finset.sum_congr rfl fun r _ => ?_
  rw [block2_apply, block3_apply, block4_apply, win2_array, win3_array, win4_array]

/-- The first total after the last point is the sum of the four tiles' contributions. -/
theorem tot1_last (c : Dev nD) : tot1 m c 3 tLast.isLt (ix2 (0 : Fin 1) (0 : Fin 1)) = ∑ t : Fin 4, tile1 m c t := by
  simp only [tot1]
  rw [pay7_blockSum, pay7_blockSum, pay7_blockSum, pay7_blockSum, pay5_apply, blocks_tile1, blocks_tile1, blocks_tile1, blocks_tile1]
  exact TileSums.chain4_fun (tile1 m c)

/-- The second total after the last point is the sum of the four tiles' contributions. -/
theorem tot2_last (c : Dev nD) : tot2 m c 3 tLast.isLt (ix2 (0 : Fin 1) (0 : Fin 1)) = ∑ t : Fin 4, tile2 m c t := by
  simp only [tot2, pay1_eq]
  rw [pay8_blockSum, pay8_blockSum, pay8_blockSum, pay8_blockSum, pay6_apply, blocks_tile2, blocks_tile2, blocks_tile2, blocks_tile2]
  exact TileSums.chain4_fun (tile2 m c)

end Cert.KernelIdeal.Totals

end
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.HostRead.lean ====
/-
  The arrays the kernel's input windows are cut from, read at one entry.

  A node array is turned sideways and continued with lanes of the padding value, which is zero: inside the first
  100000 lanes an entry is the node array's, beyond them it is zero. The four-column table collects, in the row of
  every node n, the rows of the edges whose target word is n: each edge's row holds the three coordinates of
  d = predicted - input at the edge's source row (the source word shifted if negative, then clamped into the table)
  followed by a one. So the table's first three columns at (n, c) are the sum of d at the source rows of the edges
  into n, and its last column is the number of those edges.
-/
import proofs.«169432_j69655779607183_2_alg».proof.Proof.HostTerms
import proofs.«169432_j69655779607183_2_alg».proof.Proof.Spec
import proofs.«169432_j69655779607183_2_alg».proof.Proof.LibRowScatter
import Idealize.ShloMosaic.Lib.KernelVsHost
import Idealize.ShloMosaic.Lib.ValueLayout
import Idealize.ShloMosaic.Lib.Pipeline.Value
import Idealize.ShloMosaic.Lib.IdealHost

noncomputable section

open scoped BigOperators

namespace Cert.Bridge.HostRead

open Idealize.ShloMosaic Idealize.ShloMosaic.ValueIdx Idealize.ShloMosaic.RowScatter
open Cert.KernelIdeal Cert.KernelIdeal.Gen Cert.KernelIdeal.HostTerms Cert.Bridge.LapLoss

/-! ## The padding -/

/-- The padding value is zero: the integer word 0 converts to the real number 0. -/
theorem padValue_eq : padValue (F := Ideal) ix0 = 0 := by
  show (((0#32 : BitVec 32).toInt : ℝ) : EReal) = 0
  simp

/-- The rank-0 shape has one index. -/
theorem padValue_first : padValue (F := Ideal) (Shape.Idx.first h_S_) = 0 := by
  rw [eq_ix0 (Shape.Idx.first h_S_)]
  exact padValue_eq

/-- Inside the first 100000 lanes the sideways array reads the node array. -/
theorem padT3_lt (x : FVec Ideal S100000x3 .f32) (c : Fin 3) (n : Fin 102400) (h : n.val < 100000) :
    padT3 x (ix2 c n) = x (ix2 ⟨n.val, h⟩ c) := by
  unfold padT3
  rw [pad_apply_of_inside _ _ _ _ _ _ _ (ix2 c n) (ix2 c (⟨n.val, h⟩ : Fin 100000)) (fun a => by
    match a with
    | ⟨0, _⟩ => show c.val = 0 + c.val * (0 + 1); omega
    | ⟨1, _⟩ => show n.val = 0 + n.val * (0 + 1); omega)]
  exact transpose_ix2_apply x _ c ⟨n.val, h⟩

/-- Beyond them it reads the padding value, zero. -/
theorem padT3_ge (x : FVec Ideal S100000x3 .f32) (c : Fin 3) (n : Fin 102400) (h : 100000 ≤ n.val) :
    padT3 x (ix2 c n) = 0 := by
  unfold padT3
  rw [pad_apply_of_not_inside _ _ _ _ _ _ _ (ix2 c n) (1 : Fin 2) (fun hin => by
    have h3 : (n.val - 0) / (0 + 1) < 100000 := hin.2.2
    omega)]
  exact padValue_first

/-- The same for a one-column node array. -/
theorem padT1_lt (y : FVec Ideal S100000x1 .f32) (n : Fin 102400) (h : n.val < 100000) :
    padT1 y (ix2 (0 : Fin 1) n) = y (ix2 ⟨n.val, h⟩ (0 : Fin 1)) := by
  unfold padT1
  rw [pad_apply_of_inside _ _ _ _ _ _ _ (ix2 (0 : Fin 1) n) (ix2 (0 : Fin 1) (⟨n.val, h⟩ : Fin 100000)) (fun a => by
    match a with
    | ⟨0, _⟩ => show (0 : Fin 1).val = 0 + (0 : Fin 1).val * (0 + 1); rfl
    | ⟨1, _⟩ => show n.val = 0 + n.val * (0 + 1); omega)]
  exact transpose_ix2_apply y _ (0 : Fin 1) ⟨n.val, h⟩

theorem padT1_ge (y : FVec Ideal S100000x1 .f32) (n : Fin 102400) (h : 100000 ≤ n.val) :
    padT1 y (ix2 (0 : Fin 1) n) = 0 := by
  unfold padT1
  rw [pad_apply_of_not_inside _ _ _ _ _ _ _ (ix2 (0 : Fin 1) n) (1 : Fin 2) (fun hin => by
    have h3 : (n.val - 0) / (0 + 1) < 100000 := hin.2.2
    omega)]
  exact padValue_first

/-! ## The index words -/

/-- Row 0 of the edge array, as a vector: the source words. -/
theorem srcs_at (ei : IVec S2x3200000 32) (e : Fin 3200000) : srcs ei (ix1 e) = srcW ei e := by
  unfold srcs
  rw [shapeCast_apply _ _ (ix1 e) (ix2 (0 : Fin 1) e) (by
    rewrite [Shape.rowMajor_val_two, Shape.rowMajor_val_one]
    show 0 * 3200000 + e.val = e.val; omega)]
  exact extractStridedSlice_apply _ ei _ (ix2 (0 : Fin 1) e) (ix2 (0 : Fin 2) e) (fun a => by
    match a with
    | ⟨0, _⟩ => rfl
    | ⟨1, _⟩ => show e.val = 0 + e.val; omega)

/-- Row 1: the target words. -/
theorem dsts_at (ei : IVec S2x3200000 32) (e : Fin 3200000) : dsts ei (ix1 e) = dstW ei e := by
  unfold dsts
  rw [shapeCast_apply _ _ (ix1 e) (ix2 (0 : Fin 1) e) (by
    rewrite [Shape.rowMajor_val_two, Shape.rowMajor_val_one]
    show 0 * 3200000 + e.val = e.val; omega)]
  exact extractStridedSlice_apply _ ei _ (ix2 (0 : Fin 1) e) (ix2 (1 : Fin 2) e) (fun a => by
    match a with
    | ⟨0, _⟩ => rfl
    | ⟨1, _⟩ => show e.val = 0 + e.val; omega)

/-- A negative word is shifted up by the number of nodes, one word at a time. -/
theorem shifted_at (v : IVec S3200000 32) (j : S3200000.Idx) : shifted v j = wrap (v j) := rfl

/-- Entry (e, 0) of an index column [E, 1] reads the index vector at e. -/
theorem col_at (v : IVec S3200000 32) (e : Fin 3200000) :
    broadcastInDim S3200000x1 ![0] bcast_S3200000_S3200000x1_0 v (ix2 e (0 : Fin 1)) = v (ix1 e) :=
  broadcastInDim_apply _ _ v (ix2 e (0 : Fin 1)) (ix1 e) (fun a => by
    match a with
    | ⟨0, _⟩ => show e.val = if (3200000 : Nat) = 1 then 0 else e.val; rw [if_neg (by decide)])

/-! ## The edge rows -/

/-- The first three entries of edge e's row: d at the edge's source row. -/
theorem edgeRows_lt (p i : FVec Ideal S100000x3 .f32) (ei : IVec S2x3200000 32) (e : Fin 3200000) (c : Fin 3) :
    edgeRows p i ei (ix2 e (⟨c.val, by omega⟩ : Fin 4))
      = p (ix2 (row (srcW ei e)) c) - i (ix2 (row (srcW ei e)) c) := by
  unfold edgeRows
  rw [concatenate_pair_apply_left (t := S3200000x4) (s₁ := S3200000x3) (s₂ := S3200000x1) (1 : Fin 2) _ _ _
      (ix2 e (⟨c.val, by omega⟩ : Fin 4)) rfl (ix2 e c) (fun b => by
    match b with
    | ⟨0, _⟩ => rfl
    | ⟨1, _⟩ => rfl)]
  have h := gather_rows_apply (N := 100000) (E := 3200000) (C := 3) (by decide)
    gather_S100000x3_S3200000x1_S3200000x3_1_0_n_n_0_1_13_wf (subf p i)
    (broadcastInDim S3200000x1 ![0] bcast_S3200000_S3200000x1_0 (shifted (srcs ei))) e c
  refine h.trans (congrArg (subf p i) (ix2_inj.mpr ⟨Fin.ext ?_, rfl⟩))
  show min (broadcastInDim S3200000x1 ![0] bcast_S3200000_S3200000x1_0 (shifted (srcs ei))
      (ix2 e (0 : Fin 1))).toInt.toNat (100000 - 1) = (row (srcW ei e)).val
  rw [col_at, shifted_at, srcs_at]
  rfl

/-- The fourth entry: a one. -/
theorem edgeRows_three (p i : FVec Ideal S100000x3 .f32) (ei : IVec S2x3200000 32) (e : Fin 3200000) :
    edgeRows p i ei (ix2 e (3 : Fin 4)) = 1 := by
  unfold edgeRows
  rw [concatenate_pair_apply_right (t := S3200000x4) (s₁ := S3200000x3) (s₂ := S3200000x1) (1 : Fin 2) _ _ _
      (ix2 e (3 : Fin 4)) rfl rfl (ix2 e (0 : Fin 1)) (fun b hb => by
    match b with
    | ⟨0, _⟩ => rfl
    | ⟨1, _⟩ => exact absurd rfl hb) rfl]
  rw [broadcastInDim_scalar_apply]
  exact Ideal.ofBits_one_f32

/-! ## The four-column table -/

/-- Entry (n, c) of the table: the sum, over the edges whose target word is n, of entry c of the edge's row. -/
theorem table4_apply (p i : FVec Ideal S100000x3 .f32) (ei : IVec S2x3200000 32) (n : Fin 100000) (c : Fin 4) :
    table4 p i ei (ix2 n c) = ∑ e ∈ into ei n, edgeRows p i ei (ix2 e c) := by
  unfold table4
  have h := host_scatterAdd_rows_apply (N := 100000) (E := 3200000) (C := 4)
    scatter_S100000x4_S3200000x1_S3200000x4_1_0_0_1_wf
    (broadcastInDim S100000x4 ![] bcast_S_S100000x4 (constant (F := Ideal) S_ .f32 0x00000000#32))
    (broadcastInDim S3200000x1 ![0] bcast_S3200000_S3200000x1_0 (dsts ei)) (edgeRows p i ei) n c
  refine h.trans ?_
  rw [broadcastInDim_scalar_apply, constant_apply, Ideal.ofBits_zero_f32, zero_add]
  unfold into
  refine Finset.sum_congr (Finset.filter_congr fun e _ => ?_) fun e _ => rfl
  rw [col_at, dsts_at]

/-- The first three columns: the sums of d over the sources of the edges into each node. -/
theorem sums3_apply (p i : FVec Ideal S100000x3 .f32) (ei : IVec S2x3200000 32) (n : Fin 100000) (c : Fin 3) :
    sums3 p i ei (ix2 n c)
      = ∑ e ∈ into ei n, (p (ix2 (row (srcW ei e)) c) - i (ix2 (row (srcW ei e)) c)) := by
  unfold sums3
  rw [extractStridedSlice_apply _ _ _ (ix2 n c) (ix2 n (⟨c.val, by omega⟩ : Fin 4)) (fun a => by
    match a with
    | ⟨0, _⟩ => show n.val = 0 + n.val; omega
    | ⟨1, _⟩ => show c.val = 0 + c.val; omega), table4_apply]
  exact Finset.sum_congr rfl fun e _ => edgeRows_lt p i ei e c

/-- The last column: the number of edges into each node. -/
theorem count1_apply (p i : FVec Ideal S100000x3 .f32) (ei : IVec S2x3200000 32) (n : Fin 100000) :
    count1 p i ei (ix2 n (0 : Fin 1)) = countInto ei n := by
  unfold count1
  rw [extractStridedSlice_apply _ _ _ (ix2 n (0 : Fin 1)) (ix2 n (3 : Fin 4)) (fun a => by
    match a with
    | ⟨0, _⟩ => show n.val = 0 + n.val; omega
    | ⟨1, _⟩ => rfl), table4_apply]
  unfold countInto
  exact Finset.sum_congr rfl fun e _ => edgeRows_three p i ei e

end Cert.Bridge.HostRead

end
-- ==== Proof.KernelSums.lean ====
/-
  The kernel's two accumulated sums, over the four tiles of padded lanes, are the two sums of the specification.

  Each input window of the kernel is cut from a node array turned sideways and continued with 2400 lanes of zeros.  On a
  lane n < 100000 the padded array reads the node array at node n; on the 2400 lanes beyond it reads 0.  The summand of
  either accumulation at a padded lane is therefore |0 − 0| = 0, respectively |0 · 0 − 0| = 0, and at a real lane it is the
  summand of the specification at node n: |P − G| for the first sum, and for the second the absolute value of
  count(n) · (P − I)(n, c) minus the sum of P − I over the sources of the edges into n.  Summing over the four tiles of
  25600 lanes is summing over all 102400 lanes, of which only the first 100000 contribute.
-/
import proofs.«169432_j69655779607183_2_alg».proof.Proof.HostRead
import proofs.«169432_j69655779607183_2_alg».proof.Proof.TileSums
import proofs.«169432_j69655779607183_2_alg».proof.Proof.Spec
import proofs.«169432_j69655779607183_2_alg».proof.Proof.Lanes

noncomputable section

open scoped BigOperators

namespace Cert.Bridge.KernelSums

open Idealize.ShloMosaic Idealize.ShloMosaic.ValueIdx Cert.KernelIdeal Cert.Bridge

/-! ## The summands on a padded lane -/

/-- |0 − 0| = 0. -/
theorem absE_zero_sub_zero : LapLoss.absE ((0 : EReal) - 0) = 0 := by
  unfold LapLoss.absE
  rw [sub_zero, neg_zero, max_self]

/-- |0 · 0 − 0| = 0. -/
theorem absE_zero_mul_zero_sub_zero : LapLoss.absE ((0 : EReal) * 0 - 0) = 0 := by
  unfold LapLoss.absE
  rw [mul_zero, sub_zero, neg_zero, max_self]

/-! ## The two sums -/

/-- The sum over the tiles of |P − G| on the padded arrays is the specification's sum over nodes and coordinates. -/
theorem l1_tiles (P G : FVec Ideal S100000x3 .f32) :
    ∑ t : Fin 4, ∑ j : Fin 25600, ∑ c : Fin 3,
        LapLoss.absE (HostTerms.padT3 P (ix2 c (Lanes.lane t j)) - HostTerms.padT3 G (ix2 c (Lanes.lane t j)))
      = LapLoss.l1Sum P G := by
  unfold LapLoss.l1Sum
  refine TileSums.tiles_sum
    (fun n : Fin 102400 => ∑ c : Fin 3, LapLoss.absE (HostTerms.padT3 P (ix2 c n) - HostTerms.padT3 G (ix2 c n)))
    (fun n : Fin 100000 => ∑ c : Fin 3, LapLoss.absE (P (ix2 n c) - G (ix2 n c))) ?_ ?_
  · intro n h
    refine Finset.sum_congr rfl fun c _ => ?_
    rw [HostRead.padT3_lt P c n h, HostRead.padT3_lt G c n h]
  · intro n h
    refine Finset.sum_eq_zero fun c _ => ?_
    rw [HostRead.padT3_ge P c n h, HostRead.padT3_ge G c n h]
    exact absE_zero_sub_zero

/-- The summand of the second accumulation at a real lane is the specification's regrouped entry at that node. -/
theorem lap_summand_lt (P I : FVec Ideal S100000x3 .f32) (ei : IVec S2x3200000 32) (c : Fin 3) (n : Fin 102400)
    (h : n.val < 100000) :
    HostTerms.padT1 (HostTerms.count1 P I ei) (ix2 (0 : Fin 1) n) * HostTerms.padT3 (subf P I) (ix2 c n)
        - HostTerms.padT3 (HostTerms.sums3 P I ei) (ix2 c n)
      = LapLoss.kerLapEntry P I ei ⟨n.val, h⟩ c := by
  rw [HostRead.padT1_lt (HostTerms.count1 P I ei) n h, HostRead.padT3_lt (subf P I) c n h,
    HostRead.padT3_lt (HostTerms.sums3 P I ei) c n h, HostRead.count1_apply P I ei ⟨n.val, h⟩,
    HostRead.sums3_apply P I ei ⟨n.val, h⟩ c, subf_apply]
  rfl

/-- The sum over the tiles of the second accumulation's summand is the specification's regrouped sum. -/
theorem lap_tiles (P I : FVec Ideal S100000x3 .f32) (ei : IVec S2x3200000 32) :
    ∑ t : Fin 4, ∑ j : Fin 25600, ∑ c : Fin 3,
        LapLoss.absE (HostTerms.padT1 (HostTerms.count1 P I ei) (ix2 (0 : Fin 1) (Lanes.lane t j))
            * HostTerms.padT3 (subf P I) (ix2 c (Lanes.lane t j))
          - HostTerms.padT3 (HostTerms.sums3 P I ei) (ix2 c (Lanes.lane t j)))
      = LapLoss.kerLapSum P I ei := by
  unfold LapLoss.kerLapSum
  refine TileSums.tiles_sum
    (fun n : Fin 102400 => ∑ c : Fin 3,
      LapLoss.absE (HostTerms.padT1 (HostTerms.count1 P I ei) (ix2 (0 : Fin 1) n) * HostTerms.padT3 (subf P I) (ix2 c n)
        - HostTerms.padT3 (HostTerms.sums3 P I ei) (ix2 c n)))
    (fun n : Fin 100000 => ∑ c : Fin 3, LapLoss.absE (LapLoss.kerLapEntry P I ei n c)) ?_ ?_
  · intro n h
    refine Finset.sum_congr rfl fun c _ => ?_
    rw [lap_summand_lt P I ei c n h]
  · intro n h
    refine Finset.sum_eq_zero fun c _ => ?_
    rw [HostRead.padT1_ge (HostTerms.count1 P I ei) n h, HostRead.padT3_ge (subf P I) c n h,
      HostRead.padT3_ge (HostTerms.sums3 P I ei) c n h]
    exact absE_zero_mul_zero_sub_zero

end Cert.Bridge.KernelSums

end
-- ==== Proof.KernelValue.lean ====
/-
  The kernel program's three results as the specification's functions of its arguments: the first total is the sum of
  |predicted - truth| over all nodes and coordinates (the padded lanes add |0 - 0| = 0), the second the sum of
  |count * d - sums| over them (the padded lanes add |0 * 0 - 0| = 0); the results are their means and the weighted sum.
-/
import proofs.«169432_j69655779607183_2_alg».proof.Proof.Gen.KernelIdeal.Frame
import Idealize.ShloMosaic.Lib.Pipeline.Value
import Idealize.ShloMosaic.Lib.Tactic
import proofs.«169432_j69655779607183_2_alg».proof.Proof.KernelOuts
import proofs.«169432_j69655779607183_2_alg».proof.Proof.KernelTotals
import proofs.«169432_j69655779607183_2_alg».proof.Proof.KernelSums

noncomputable section

open Idealize.ShloMosaic Idealize.ShloMosaic.TcCoe Idealize.SL.Sem
open Idealize.ShloMosaic.Pipeline (Dat)

open scoped BigOperators

namespace Cert.KernelIdeal.Results
open Cert.KernelIdeal Cert.KernelIdeal.Gen Cert.KernelIdeal.Fold Cert.KernelIdeal.Outs Cert.KernelIdeal.Totals
open Idealize.ShloMosaic.ValueIdx Cert.Bridge Cert.Bridge.KernelPayload

variable (m : (ℓ : Loc nD τ sig) → Buf (Elt Ideal) ℓ)

/-- A 1 x 1 array viewed as a scalar holds its one entry. -/
theorem scalar_of_unit (X : FVec Ideal S1x1 .f32) (h : S1x1.ShapeCasts S_) (i : S_.Idx) :
    shapeCast S_ X h i = X (ix2 (0 : Fin 1) (0 : Fin 1)) :=
  shapeCast_apply X h i (ix2 (0 : Fin 1) (0 : Fin 1)) (by
    have h1 : (S1x1.rowMajor (ix2 (0 : Fin 1) (0 : Fin 1))).val < 1 := lt_of_lt_of_eq (S1x1.rowMajor _).isLt (by decide)
    have h2 : (S_.rowMajor i).val < 1 := lt_of_lt_of_eq (S_.rowMajor i).isLt (by decide)
    omega)

/-- The first total after the last point is the L1 sum. -/
theorem total1_eq (c : Dev nD) :
    tot1 m c 3 tLast.isLt (ix2 (0 : Fin 1) (0 : Fin 1)) = LapLoss.l1Sum (m ((c : Thread nD τ).loc main_arg0)) (m ((c : Thread nD τ).loc main_arg1)) := by
  rw [tot1_last]
  simp only [tile1]
  exact KernelSums.l1_tiles _ _

/-- The second total after the last point is the regrouped Laplacian sum. -/
theorem total2_eq (c : Dev nD) :
    tot2 m c 3 tLast.isLt (ix2 (0 : Fin 1) (0 : Fin 1)) = LapLoss.kerLapSum (m ((c : Thread nD τ).loc main_arg0)) (m ((c : Thread nD τ).loc main_arg2)) (m ((c : Thread nD τ).loc main_arg3)) := by
  rw [tot2_last]
  simp only [tile2]
  exact KernelSums.lap_tiles _ _ _

/-- Result 0: the weighted sum. -/
theorem out0_value (c : Dev nD) :
    shapeCast S_ (res5 m c) Facts₀.shapeCasts_S1x1_S_
      = fun _ => LapLoss.total (LapLoss.l1Sum (m ((c : Thread nD τ).loc main_arg0)) (m ((c : Thread nD τ).loc main_arg1))) (LapLoss.kerLapSum (m ((c : Thread nD τ).loc main_arg0)) (m ((c : Thread nD τ).loc main_arg2)) (m ((c : Thread nD τ).loc main_arg3))) := by
  funext i
  rw [scalar_of_unit]
  show k0_pay4 (tot1 m c 3 tLast.isLt) (tot2 m c 3 tLast.isLt) (ix2 (0 : Fin 1) (0 : Fin 1)) = _
  rw [pay4_apply, total1_eq, total2_eq]

/-- Result 1: the mean absolute error. -/
theorem out1_value (c : Dev nD) :
    shapeCast S_ (res6 m c) Facts₀.shapeCasts_S1x1_S_ = fun _ => LapLoss.mean (LapLoss.l1Sum (m ((c : Thread nD τ).loc main_arg0)) (m ((c : Thread nD τ).loc main_arg1))) := by
  funext i
  rw [scalar_of_unit]
  show k0_pay2 (tot1 m c 3 tLast.isLt) (ix2 (0 : Fin 1) (0 : Fin 1)) = _
  rw [pay2_apply, total1_eq]

/-- Result 2: the mean absolute Laplacian difference, regrouped. -/
theorem out2_value (c : Dev nD) :
    shapeCast S_ (res7 m c) Facts₀.shapeCasts_S1x1_S_ = fun _ => LapLoss.mean (LapLoss.kerLapSum (m ((c : Thread nD τ).loc main_arg0)) (m ((c : Thread nD τ).loc main_arg2)) (m ((c : Thread nD τ).loc main_arg3))) := by
  funext i
  rw [scalar_of_unit]
  show k0_pay3 (tot2 m c 3 tLast.isLt) (ix2 (0 : Fin 1) (0 : Fin 1)) = _
  rw [pay3_apply, total2_eq]

end Cert.KernelIdeal.Results

end
-- ==== Proof.RefSide.lean ====
/-
  The reference program's three results are the specification's functions.

  The reference computes, for the predicted and for the input coordinates, the graph Laplacian of the node table:
  for every edge the table's row at the target minus its row at the source, added into the target's row. A row that
  is looked up has a negative index word shifted up by the number of nodes and is clamped into the table; the row
  that is added into is the target word as it stands. The Laplacian loss is the sum over nodes and coordinates of the
  absolute difference of the two Laplacians divided by 300000, the L1 loss is the same for predicted minus ground
  truth, and the total is the L1 loss plus one half of the Laplacian loss.

  Each step below reads one operation of the program at explicit coordinates: the index words, the shifted words,
  the gathered rows, the accumulated tables, the two sums and the three results.
-/
import proofs.«169432_j69655779607183_2_alg».proof.Proof.Gen.ReferenceIdeal.Read
import proofs.«169432_j69655779607183_2_alg».proof.Proof.Spec
import proofs.«169432_j69655779607183_2_alg».proof.Proof.LibRowScatter
import Idealize.ShloMosaic.Lib.ValueIdx
import Idealize.ShloMosaic.PureOps.Ideal.Laws

noncomputable section

open scoped BigOperators

namespace Cert.Bridge.RefSide

open Idealize.ShloMosaic Idealize.ShloMosaic.ValueIdx Idealize.ShloMosaic.RowScatter
open Cert.ReferenceIdeal Cert.ReferenceIdeal.Gen Cert.ReferenceIdeal.Read Cert.Bridge.LapLoss

/-- A node table's contents at the ideal instance. -/
abbrev NodeT : Type := (⟨S100000x3, .f32⟩ : BufTy).Contents (Elt Ideal)
/-- The edge array's contents. -/
abbrev EdgeT : Type := (⟨S2x3200000, .i32⟩ : BufTy).Contents (Elt Ideal)

/-! ## The index words

Row 0 of the edge array holds the source words and row 1 the target words; the program slices each row out and
drops the unit axis. -/

theorem srcWord (x3 : EdgeT) (e : Fin 3200000) : val_main_v1 (F := Ideal) x3 (ix1 e) = srcW x3 e := by
  rw [val_main_v1_apply, val_main_v0_apply]
  unfold srcW
  refine congrArg x3 (funext fun a => Fin.ext ?_)
  match a with
  | ⟨0, _⟩ => rfl
  | ⟨1, _⟩ => exact Nat.mod_eq_of_lt e.isLt

theorem dstWord (x3 : EdgeT) (e : Fin 3200000) : val_main_v3 (F := Ideal) x3 (ix1 e) = dstW x3 e := by
  rw [val_main_v3_apply, val_main_v2_apply]
  unfold dstW
  refine congrArg x3 (funext fun a => Fin.ext ?_)
  match a with
  | ⟨0, _⟩ => rfl
  | ⟨1, _⟩ => exact Nat.mod_eq_of_lt e.isLt

/-! Entry (e, 0) of an index column [E, 1] reads the index vector at e. -/

theorem col_idx_v9 (e : Fin 3200000) : idx_main_v9 (ix2 e (0 : Fin 1)) = ix1 e := by
  funext a; match a with | ⟨0, _⟩ => rfl

theorem col_idx_v16 (e : Fin 3200000) : idx_main_v16 (ix2 e (0 : Fin 1)) = ix1 e := by
  funext a; match a with | ⟨0, _⟩ => rfl

theorem col_idx_v20 (e : Fin 3200000) : idx_main_v20 (ix2 e (0 : Fin 1)) = ix1 e := by
  funext a; match a with | ⟨0, _⟩ => rfl

theorem col_idx_v27 (e : Fin 3200000) : idx_main_v27 (ix2 e (0 : Fin 1)) = ix1 e := by
  funext a; match a with | ⟨0, _⟩ => rfl

theorem col_idx_v34 (e : Fin 3200000) : idx_main_v34 (ix2 e (0 : Fin 1)) = ix1 e := by
  funext a; match a with | ⟨0, _⟩ => rfl

theorem col_idx_v38 (e : Fin 3200000) : idx_main_v38 (ix2 e (0 : Fin 1)) = ix1 e := by
  funext a; match a with | ⟨0, _⟩ => rfl

/-! ## The shifted words

Before a lookup a negative word is shifted up by the number of nodes: select (v < 0) (v + 100000) v, one word at a
time. -/

theorem v8_at (x3 : EdgeT) (e : Fin 3200000) : val_main_v8 (F := Ideal) x3 (ix1 e) = wrap (dstW x3 e) := by
  rw [val_main_v8_apply, val_main_v5_apply, val_main_v7_apply, val_main_v4_apply, val_main_v6_apply,
    val_main_c_apply, val_main_c_0_apply, dstWord]
  rfl

theorem v15_at (x3 : EdgeT) (e : Fin 3200000) : val_main_v15 (F := Ideal) x3 (ix1 e) = wrap (srcW x3 e) := by
  rw [val_main_v15_apply, val_main_v12_apply, val_main_v14_apply, val_main_v11_apply, val_main_v13_apply,
    val_main_c_1_apply, val_main_c_2_apply, srcWord]
  rfl

theorem v26_at (x3 : EdgeT) (e : Fin 3200000) : val_main_v26 (F := Ideal) x3 (ix1 e) = wrap (dstW x3 e) := by
  rw [val_main_v26_apply, val_main_v23_apply, val_main_v25_apply, val_main_v22_apply, val_main_v24_apply,
    val_main_c_3_apply, val_main_c_4_apply, dstWord]
  rfl

theorem v33_at (x3 : EdgeT) (e : Fin 3200000) : val_main_v33 (F := Ideal) x3 (ix1 e) = wrap (srcW x3 e) := by
  rw [val_main_v33_apply, val_main_v30_apply, val_main_v32_apply, val_main_v29_apply, val_main_v31_apply,
    val_main_c_5_apply, val_main_c_6_apply, srcWord]
  rfl

theorem v9_at (x3 : EdgeT) (e : Fin 3200000) :
    val_main_v9 (F := Ideal) x3 (ix2 e (0 : Fin 1)) = wrap (dstW x3 e) := by
  rw [val_main_v9_apply, col_idx_v9, v8_at]

theorem v16_at (x3 : EdgeT) (e : Fin 3200000) :
    val_main_v16 (F := Ideal) x3 (ix2 e (0 : Fin 1)) = wrap (srcW x3 e) := by
  rw [val_main_v16_apply, col_idx_v16, v15_at]

theorem v27_at (x3 : EdgeT) (e : Fin 3200000) :
    val_main_v27 (F := Ideal) x3 (ix2 e (0 : Fin 1)) = wrap (dstW x3 e) := by
  rw [val_main_v27_apply, col_idx_v27, v26_at]

theorem v34_at (x3 : EdgeT) (e : Fin 3200000) :
    val_main_v34 (F := Ideal) x3 (ix2 e (0 : Fin 1)) = wrap (srcW x3 e) := by
  rw [val_main_v34_apply, col_idx_v34, v33_at]

/-! The accumulation is indexed by the target words as they are, not shifted. -/

theorem v20_at (x3 : EdgeT) (e : Fin 3200000) :
    val_main_v20 (F := Ideal) x3 (ix2 e (0 : Fin 1)) = dstW x3 e := by
  rw [val_main_v20_apply, col_idx_v20, dstWord]

theorem v38_at (x3 : EdgeT) (e : Fin 3200000) :
    val_main_v38 (F := Ideal) x3 (ix2 e (0 : Fin 1)) = dstW x3 e := by
  rw [val_main_v38_apply, col_idx_v38, dstWord]

/-! ## The gathered rows

Entry (e, c) of a gathered table is the node table at the row the shifted word selects, clamped into the table. -/

theorem v10_at (x0 : NodeT) (x3 : EdgeT) (e : Fin 3200000) (c : Fin 3) :
    val_main_v10 (F := Ideal) x0 x3 (ix2 e c) = x0 (ix2 (row (dstW x3 e)) c) := by
  unfold val_main_v10
  have h := gather_rows_apply (N := 100000) (E := 3200000) (C := 3) (by decide)
    gather_S100000x3_S3200000x1_S3200000x3_1_0_n_n_0_1_13_wf x0 (val_main_v9 (F := Ideal) x3) e c
  refine h.trans (congrArg x0 (ix2_inj.mpr ⟨Fin.ext ?_, rfl⟩))
  show min (val_main_v9 (F := Ideal) x3 (ix2 e (0 : Fin 1))).toInt.toNat (100000 - 1) = (row (dstW x3 e)).val
  rw [v9_at]
  rfl

theorem v17_at (x0 : NodeT) (x3 : EdgeT) (e : Fin 3200000) (c : Fin 3) :
    val_main_v17 (F := Ideal) x0 x3 (ix2 e c) = x0 (ix2 (row (srcW x3 e)) c) := by
  unfold val_main_v17
  have h := gather_rows_apply (N := 100000) (E := 3200000) (C := 3) (by decide)
    gather_S100000x3_S3200000x1_S3200000x3_1_0_n_n_0_1_13_wf x0 (val_main_v16 (F := Ideal) x3) e c
  refine h.trans (congrArg x0 (ix2_inj.mpr ⟨Fin.ext ?_, rfl⟩))
  show min (val_main_v16 (F := Ideal) x3 (ix2 e (0 : Fin 1))).toInt.toNat (100000 - 1) = (row (srcW x3 e)).val
  rw [v16_at]
  rfl

theorem v28_at (x2 : NodeT) (x3 : EdgeT) (e : Fin 3200000) (c : Fin 3) :
    val_main_v28 (F := Ideal) x2 x3 (ix2 e c) = x2 (ix2 (row (dstW x3 e)) c) := by
  unfold val_main_v28
  have h := gather_rows_apply (N := 100000) (E := 3200000) (C := 3) (by decide)
    gather_S100000x3_S3200000x1_S3200000x3_1_0_n_n_0_1_13_wf x2 (val_main_v27 (F := Ideal) x3) e c
  refine h.trans (congrArg x2 (ix2_inj.mpr ⟨Fin.ext ?_, rfl⟩))
  show min (val_main_v27 (F := Ideal) x3 (ix2 e (0 : Fin 1))).toInt.toNat (100000 - 1) = (row (dstW x3 e)).val
  rw [v27_at]
  rfl

theorem v35_at (x2 : NodeT) (x3 : EdgeT) (e : Fin 3200000) (c : Fin 3) :
    val_main_v35 (F := Ideal) x2 x3 (ix2 e c) = x2 (ix2 (row (srcW x3 e)) c) := by
  unfold val_main_v35
  have h := gather_rows_apply (N := 100000) (E := 3200000) (C := 3) (by decide)
    gather_S100000x3_S3200000x1_S3200000x3_1_0_n_n_0_1_13_wf x2 (val_main_v34 (F := Ideal) x3) e c
  refine h.trans (congrArg x2 (ix2_inj.mpr ⟨Fin.ext ?_, rfl⟩))
  show min (val_main_v34 (F := Ideal) x3 (ix2 e (0 : Fin 1))).toInt.toNat (100000 - 1) = (row (srcW x3 e)).val
  rw [v34_at]
  rfl

/-! The update rows: target row minus source row. -/

theorem v18_at (x0 : NodeT) (x3 : EdgeT) (e : Fin 3200000) (c : Fin 3) :
    val_main_v18 (F := Ideal) x0 x3 (ix2 e c)
      = x0 (ix2 (row (dstW x3 e)) c) - x0 (ix2 (row (srcW x3 e)) c) := by
  rw [val_main_v18_apply, v10_at, v17_at]
  rfl

theorem v36_at (x2 : NodeT) (x3 : EdgeT) (e : Fin 3200000) (c : Fin 3) :
    val_main_v36 (F := Ideal) x2 x3 (ix2 e c)
      = x2 (ix2 (row (dstW x3 e)) c) - x2 (ix2 (row (srcW x3 e)) c) := by
  rw [val_main_v36_apply, v28_at, v35_at]
  rfl

/-! ## The accumulated tables

Each table starts from zero, and entry (n, c) collects the update rows of the edges whose target word is n. -/

theorem v19_at (n : Fin 100000) (c : Fin 3) : val_main_v19 (F := Ideal) (ix2 n c) = 0 := by
  rw [val_main_v19_apply, val_main_cst_apply, Ideal.ofBits_def, Ideal.ofBits_zero_f32]

theorem v37_at (n : Fin 100000) (c : Fin 3) : val_main_v37 (F := Ideal) (ix2 n c) = 0 := by
  rw [val_main_v37_apply, val_main_cst_7_apply, Ideal.ofBits_def, Ideal.ofBits_zero_f32]

theorem v21_at (x0 : NodeT) (x3 : EdgeT) (n : Fin 100000) (c : Fin 3) :
    val_main_v21 (F := Ideal) x0 x3 (ix2 n c) = lapEntry x0 x3 n c := by
  unfold val_main_v21
  have h := host_scatterAdd_rows_apply (N := 100000) (E := 3200000) (C := 3)
    scatter_S100000x3_S3200000x1_S3200000x3_1_0_0_1_wf (val_main_v19 (F := Ideal)) (val_main_v20 (F := Ideal) x3)
    (val_main_v18 (F := Ideal) x0 x3) n c
  refine h.trans ?_
  rw [v19_at, zero_add]
  unfold lapEntry into
  refine Finset.sum_congr (Finset.filter_congr fun e _ => ?_) fun e _ => v18_at x0 x3 e c
  rw [v20_at]

theorem v39_at (x2 : NodeT) (x3 : EdgeT) (n : Fin 100000) (c : Fin 3) :
    val_main_v39 (F := Ideal) x2 x3 (ix2 n c) = lapEntry x2 x3 n c := by
  unfold val_main_v39
  have h := host_scatterAdd_rows_apply (N := 100000) (E := 3200000) (C := 3)
    scatter_S100000x3_S3200000x1_S3200000x3_1_0_0_1_wf (val_main_v37 (F := Ideal)) (val_main_v38 (F := Ideal) x3)
    (val_main_v36 (F := Ideal) x2 x3) n c
  refine h.trans ?_
  rw [v37_at, zero_add]
  unfold lapEntry into
  refine Finset.sum_congr (Finset.filter_congr fun e _ => ?_) fun e _ => v36_at x2 x3 e c
  rw [v38_at]

/-! ## The three results -/

/-- Entry (n, c) of the absolute Laplacian difference. -/
theorem v41_at (x0 x2 : NodeT) (x3 : EdgeT) (n : Fin 100000) (c : Fin 3) :
    val_main_v41 (F := Ideal) x0 x2 x3 (ix2 n c) = absE (refLapEntry x0 x2 x3 n c) := by
  rw [val_main_v41_apply, val_main_v40_apply, v21_at, v39_at]
  rfl

/-- Entry (n, c) of the absolute coordinate difference. -/
theorem v45_at (x0 x1 : NodeT) (n : Fin 100000) (c : Fin 3) :
    val_main_v45 (F := Ideal) x0 x1 (ix2 n c) = absE (x0 (ix2 n c) - x1 (ix2 n c)) := by
  rw [val_main_v45_apply, val_main_v44_apply]
  rfl

/-- The sum of the absolute Laplacian differences over every index is the double sum over nodes and coordinates. -/
theorem lapSum_eq (x0 x2 : NodeT) (x3 : EdgeT) :
    ∑ j : S100000x3.Idx, val_main_v41 (F := Ideal) x0 x2 x3 j = refLapSum x0 x2 x3 := by
  rw [sum_idx2]
  unfold refLapSum
  exact Finset.sum_congr rfl fun n _ => Finset.sum_congr rfl fun c _ => v41_at x0 x2 x3 n c

/-- The same for the absolute coordinate differences. -/
theorem l1Sum_eq (x0 x1 : NodeT) :
    ∑ j : S100000x3.Idx, val_main_v45 (F := Ideal) x0 x1 j = l1Sum x0 x1 := by
  rw [sum_idx2]
  unfold l1Sum
  exact Finset.sum_congr rfl fun n _ => Finset.sum_congr rfl fun c _ => v45_at x0 x1 n c

/-- The Laplacian loss: the sum of the absolute Laplacian differences over nodes and coordinates, divided by 300000. -/
theorem ref_lap (x0 x2 : NodeT) (x3 : EdgeT) :
    val_main_v43 (F := Ideal) x0 x2 x3 = fun _ => mean (refLapSum x0 x2 x3) := by
  funext i
  rw [val_main_v43_apply, val_main_v42_apply, val_main_cst_8_apply, val_main_cst_9_apply, Ideal.hostDivf_def,
    Ideal.ofBits_def, Ideal.ofBits_def, Ideal.ofBits_zero_f32, zero_add, lapSum_eq]
  unfold mean
  rfl

/-- The L1 loss: the sum of the absolute coordinate differences, divided by 300000. -/
theorem ref_l1 (x0 x1 : NodeT) :
    val_main_v47 (F := Ideal) x0 x1 = fun _ => mean (l1Sum x0 x1) := by
  funext i
  rw [val_main_v47_apply, val_main_v46_apply, val_main_cst_10_apply, val_main_cst_11_apply, Ideal.hostDivf_def,
    Ideal.ofBits_def, Ideal.ofBits_def, Ideal.ofBits_zero_f32, zero_add, l1Sum_eq]
  unfold mean
  rfl

/-- The total: the L1 loss plus one half of the Laplacian loss. -/
theorem ref_total (x0 x1 x2 : NodeT) (x3 : EdgeT) :
    val_main_v49 (F := Ideal) x0 x1 x2 x3 = fun _ => total (l1Sum x0 x1) (refLapSum x0 x2 x3) := by
  funext i
  rw [val_main_v49_apply, val_main_v48_apply, val_main_cst_12_apply, ref_l1, ref_lap]
  rfl

end Cert.Bridge.RefSide

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LapAlgebra.lean ====
/-
  The kernel's regrouping of the Laplacian difference agrees with the reference's grouping, on real entries.

  Fix a node n and a coordinate c, and let S be the set of edges whose target word, read signed, is n.

  * Rows.  For e in S the target word is n with 0 ≤ n < 100000.  The comparison "signed less than 0" is false for it, so
    the shift of negative words leaves it alone, and the clamp min · 99999 leaves it alone as well: the row read for
    the target of e is n itself.
  * Algebra.  Write p, q for the real values of P, I.  The reference's entry is
        Σ_{e ∈ S} (p(n) − p(s_e))  −  Σ_{e ∈ S} (q(n) − q(s_e)),
    the kernel's is
        |S| · (p(n) − q(n))  −  Σ_{e ∈ S} (p(s_e) − q(s_e)),
    with |S| obtained as the sum of ones over S.  Both equal |S|·p(n) − Σ p(s_e) − |S|·q(n) + Σ q(s_e).

  Subtraction and multiplication of extended reals do not distribute in general (∞ − ∞ and 0 · ∞ have corner values), so
  the identity is proved for the real values and carried over: every operation on coercions of reals is the coercion
  of the real operation, and the coercion commutes with finite sums.
-/
import proofs.«169432_j69655779607183_2_alg».proof.Proof.Spec
import proofs.«169432_j69655779607183_2_alg».proof.Proof.LibTripleSum
import proofs.«169432_j69655779607183_2_alg».proof.Proof.LibRowScatter
import Mathlib.Tactic.Ring

noncomputable section

open scoped BigOperators

namespace Cert.Bridge.LapAlgebra

open Idealize.ShloMosaic Idealize.ShloMosaic.ValueIdx Cert.Bridge

/-! ## Rows of the edges into a node -/

/-- A non-negative index word is not shifted. -/
theorem wrap_of_nonneg (v : BitVec 32) (h0 : 0 ≤ v.toInt) : LapLoss.wrap v = v := by
  unfold LapLoss.wrap
  exact RowScatter.wrapNeg_of_nonneg v 0#32 100000#32 (by decide) h0

/-- Membership in the set of edges into n: the target word, read signed, is n. -/
theorem mem_into (ei : IVec LapLoss.SEdge 32) (n : Fin 100000) (e : Fin 3200000) :
    e ∈ LapLoss.into ei n ↔ (LapLoss.dstW ei e).toInt = (n.val : ℤ) := by
  unfold LapLoss.into
  rw [Finset.mem_filter]
  exact ⟨fun h => h.2, fun h => ⟨Finset.mem_univ e, h⟩⟩

/-- A word that reads, signed, as the node number n is looked up at row n. -/
theorem row_of_toInt_eq (v : BitVec 32) (n : Fin 100000) (h : v.toInt = (n.val : ℤ)) : LapLoss.row v = n := by
  have hn := n.isLt
  have h0 : 0 ≤ v.toInt := by omega
  apply Fin.ext
  show min (LapLoss.wrap v).toInt.toNat (100000 - 1) = n.val
  rw [wrap_of_nonneg v h0]
  omega

/-- The target row of an edge into n is n. -/
theorem row_of_into (ei : IVec LapLoss.SEdge 32) (n : Fin 100000) (e : Fin 3200000) (he : e ∈ LapLoss.into ei n) :
    LapLoss.row (LapLoss.dstW ei e) = n :=
  row_of_toInt_eq _ n ((mem_into ei n e).mp he)

/-! ## Each quantity on real entries is the coercion of a real quantity -/

/-- The Laplacian of a real table at (n, c) is the real sum over the edges into n of "value at n minus value at the
    source row". -/
theorem lapEntry_coe (p : LapLoss.SNode.Idx → ℝ) (ei : IVec LapLoss.SEdge 32) (n : Fin 100000) (c : Fin 3) :
    LapLoss.lapEntry (fun i => (p i : EReal)) ei n c
      = ((∑ e ∈ LapLoss.into ei n, (p (ix2 n c) - p (ix2 (LapLoss.row (LapLoss.srcW ei e)) c)) : ℝ) : EReal) := by
  unfold LapLoss.lapEntry
  rw [TripleSum.coe_finsetSum]
  refine Finset.sum_congr rfl fun e he => ?_
  rw [row_of_into ei n e he, EReal.coe_sub]

/-- The count of the edges into n, a sum of ones, is the real sum of ones. -/
theorem countInto_coe (ei : IVec LapLoss.SEdge 32) (n : Fin 100000) :
    LapLoss.countInto ei n = ((∑ _e ∈ LapLoss.into ei n, (1 : ℝ) : ℝ) : EReal) := by
  unfold LapLoss.countInto
  rw [TripleSum.coe_finsetSum]
  exact Finset.sum_congr rfl fun _ _ => EReal.coe_one.symm

/-- The reference's entry on real tables. -/
theorem refLapEntry_coe (p q : LapLoss.SNode.Idx → ℝ) (ei : IVec LapLoss.SEdge 32) (n : Fin 100000) (c : Fin 3) :
    LapLoss.refLapEntry (fun i => (p i : EReal)) (fun i => (q i : EReal)) ei n c
      = (((∑ e ∈ LapLoss.into ei n, (p (ix2 n c) - p (ix2 (LapLoss.row (LapLoss.srcW ei e)) c)))
          - (∑ e ∈ LapLoss.into ei n, (q (ix2 n c) - q (ix2 (LapLoss.row (LapLoss.srcW ei e)) c))) : ℝ) : EReal) := by
  unfold LapLoss.refLapEntry
  rw [lapEntry_coe, lapEntry_coe, EReal.coe_sub]

/-- The sum over the edges into n of the difference at the source row, on real tables. -/
theorem srcSum_coe (p q : LapLoss.SNode.Idx → ℝ) (ei : IVec LapLoss.SEdge 32) (n : Fin 100000) (c : Fin 3) :
    ∑ e ∈ LapLoss.into ei n,
        ((p (ix2 (LapLoss.row (LapLoss.srcW ei e)) c) : EReal) - (q (ix2 (LapLoss.row (LapLoss.srcW ei e)) c) : EReal))
      = ((∑ e ∈ LapLoss.into ei n,
            (p (ix2 (LapLoss.row (LapLoss.srcW ei e)) c) - q (ix2 (LapLoss.row (LapLoss.srcW ei e)) c)) : ℝ) : EReal) := by
  rw [TripleSum.coe_finsetSum]
  exact Finset.sum_congr rfl fun e _ => (EReal.coe_sub _ _).symm

/-- The kernel's entry on real tables. -/
theorem kerLapEntry_coe (p q : LapLoss.SNode.Idx → ℝ) (ei : IVec LapLoss.SEdge 32) (n : Fin 100000) (c : Fin 3) :
    LapLoss.kerLapEntry (fun i => (p i : EReal)) (fun i => (q i : EReal)) ei n c
      = (((∑ _e ∈ LapLoss.into ei n, (1 : ℝ)) * (p (ix2 n c) - q (ix2 n c))
          - (∑ e ∈ LapLoss.into ei n,
              (p (ix2 (LapLoss.row (LapLoss.srcW ei e)) c) - q (ix2 (LapLoss.row (LapLoss.srcW ei e)) c))) : ℝ) : EReal) := by
  show LapLoss.countInto ei n * ((p (ix2 n c) : EReal) - (q (ix2 n c) : EReal))
      - ∑ e ∈ LapLoss.into ei n,
          ((p (ix2 (LapLoss.row (LapLoss.srcW ei e)) c) : EReal) - (q (ix2 (LapLoss.row (LapLoss.srcW ei e)) c) : EReal)) = _
  rw [countInto_coe, srcSum_coe, ← EReal.coe_sub (p (ix2 n c)) (q (ix2 n c)), ← EReal.coe_mul, ← EReal.coe_sub]

/-! ## The real identity -/

/-- count · (a − b) − Σ (f − g) = Σ (a − f) − Σ (b − g), over any finite set. -/
theorem real_regroup {ι : Type*} (s : Finset ι) (a b : ℝ) (f g : ι → ℝ) :
    (∑ _e ∈ s, (1 : ℝ)) * (a - b) - ∑ e ∈ s, (f e - g e) = (∑ e ∈ s, (a - f e)) - ∑ e ∈ s, (b - g e) := by
  simp only [Finset.sum_sub_distrib, Finset.sum_const, nsmul_eq_mul, mul_one]
  ring

/-! ## The two groupings agree -/

/-- On real tables the kernel's regrouped entry is the reference's entry. -/
theorem kerLapEntry_eq (P I : LapLoss.SNode.Idx → EReal) (ei : IVec LapLoss.SEdge 32)
    (hP : ∀ i, ∃ r : ℝ, P i = (r : EReal)) (hI : ∀ i, ∃ r : ℝ, I i = (r : EReal)) (n : Fin 100000) (c : Fin 3) :
    LapLoss.kerLapEntry P I ei n c = LapLoss.refLapEntry P I ei n c := by
  choose p hp using hP
  choose q hq using hI
  obtain rfl : P = fun i => (p i : EReal) := funext hp
  obtain rfl : I = fun i => (q i : EReal) := funext hq
  rw [kerLapEntry_coe, refLapEntry_coe]
  exact congrArg _ (real_regroup _ _ _ _ _)

/-- Hence the two sums of absolute values agree. -/
theorem kerLapSum_eq (P I : LapLoss.SNode.Idx → EReal) (ei : IVec LapLoss.SEdge 32)
    (hP : ∀ i, ∃ r : ℝ, P i = (r : EReal)) (hI : ∀ i, ∃ r : ℝ, I i = (r : EReal)) :
    LapLoss.kerLapSum P I ei = LapLoss.refLapSum P I ei := by
  unfold LapLoss.kerLapSum LapLoss.refLapSum
  refine Finset.sum_congr rfl fun n _ => Finset.sum_congr rfl fun c _ => ?_
  rw [kerLapEntry_eq P I ei hP hI n c]

end Cert.Bridge.LapAlgebra

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.FiniteArgs.lean ====
/-
  The precondition "every float input is finite", decoded: every entry of each float array is a real number.

  The precondition is the conjunction, over the three float arrays, of "for every index, |x| < +∞", each written as an
  elementwise comparison of |x| = max x (−x) with the scalar +∞ (given by its float pattern) broadcast to the array's shape,
  and then reduced over all axes by "and" starting from 1.  The integer edge array is not constrained.

  Reading the claim "the result is 1" backwards: a conjunction of one-bit words is 1 exactly when each is; a reduction by
  "and" that is 1 met a 1 at every index; and the comparison |x| < +∞ holding at an index says that x is neither infinity,
  that is, x is the coercion of a real.
-/
import proofs.«169432_j69655779607183_2_alg».proof.Pre_finite_inputs
import proofs.«169432_j69655779607183_2_alg».proof.Proof.Gen.Pre_finite_inputs
import proofs.«169432_j69655779607183_2_alg».proof.Proof.LibFiniteEntry
import Idealize.ShloMosaic.Lib.ReduceAll
import Idealize.ShloMosaic.Lib.IdealHost

noncomputable section

namespace Cert.Bridge.FiniteArgs

open Idealize.ShloMosaic Idealize.ShloMosaic.ValueIdx Cert.Pre_finite_inputs

/-- A rank-0 array has one index. -/
instance subsingleton_scalarIdx : Subsingleton S_.Idx := ⟨fun a b => funext fun d => d.elim0⟩

variable [Facts]

/-- The elementwise test of one array: |x| compared (ordered, less-than) with the broadcast pattern of +∞. -/
def test (a : FVec Ideal S100000x3 .f32) : IVec S100000x3 1 :=
  cmpf .olt (Host.absf a)
    (broadcastInDim S100000x3 ![] Facts.bcast_S_S100000x3 (constant (F := Ideal) S_ .f32 0x7F800000#32))

/-- The test at one index is the comparison of max x (−x) with the pattern of +∞. -/
theorem test_apply (a : FVec Ideal S100000x3 .f32) (i : S100000x3.Idx) :
    test a i = Ideal.cmp .olt (max (a i) (-(a i))) (Ideal.ofBits .f32 0x7F800000#32) := by
  unfold test
  rw [cmpf_apply, broadcastInDim_scalar_apply, constant_apply]
  rfl

/-- An array whose test is 1 everywhere has real entries. -/
theorem real_of_test (a : FVec Ideal S100000x3 .f32) (h : ∀ i, test a i = 1#1) : ∀ i, ∃ r : ℝ, a i = (r : EReal) :=
  fun i => FiniteEntry.real_of_abs_lt_inf (a i) (by rw [← test_apply]; exact h i)

/-- The precondition, decoded into the three elementwise tests. -/
theorem tests_of_pre (a0 a1 a2 : FVec Ideal S100000x3 .f32) (a3 : IVec S2x3200000 32)
    (h : Cert.Pre_finite_inputs.fn (F := Ideal) a0 a1 a2 a3 = fun _ => 1#1) :
    (∀ i, test a0 i = 1#1) ∧ (∀ i, test a1 i = 1#1) ∧ (∀ i, test a2 i = 1#1) := by
  have e := congrFun h ix0
  dsimp only [Cert.Pre_finite_inputs.fn, andi] at e
  obtain ⟨e01, e2⟩ := IntOp.andi_eq_one.1 e
  obtain ⟨e0, e1⟩ := IntOp.andi_eq_one.1 e01
  exact ⟨fun i => Host.reduce_andi_all _ _ _ _ ix0 e0 i, fun i => Host.reduce_andi_all _ _ _ _ ix0 e1 i,
    fun i => Host.reduce_andi_all _ _ _ _ ix0 e2 i⟩

/-- Under the precondition every entry of the first float array is a real. -/
theorem real_arg0 (a0 a1 a2 : FVec Ideal S100000x3 .f32) (a3 : IVec S2x3200000 32)
    (h : Cert.Pre_finite_inputs.fn (F := Ideal) a0 a1 a2 a3 = fun _ => 1#1) : ∀ i, ∃ r : ℝ, a0 i = (r : EReal) :=
  real_of_test a0 (tests_of_pre a0 a1 a2 a3 h).1

/-- Under the precondition every entry of the second float array is a real. -/
theorem real_arg1 (a0 a1 a2 : FVec Ideal S100000x3 .f32) (a3 : IVec S2x3200000 32)
    (h : Cert.Pre_finite_inputs.fn (F := Ideal) a0 a1 a2 a3 = fun _ => 1#1) : ∀ i, ∃ r : ℝ, a1 i = (r : EReal) :=
  real_of_test a1 (tests_of_pre a0 a1 a2 a3 h).2.1

/-- Under the precondition every entry of the third float array is a real. -/
theorem real_arg2 (a0 a1 a2 : FVec Ideal S100000x3 .f32) (a3 : IVec S2x3200000 32)
    (h : Cert.Pre_finite_inputs.fn (F := Ideal) a0 a1 a2 a3 = fun _ => 1#1) : ∀ i, ∃ r : ℝ, a2 i = (r : EReal) :=
  real_of_test a2 (tests_of_pre a0 a1 a2 a3 h).2.2

end Cert.Bridge.FiniteArgs

end
-- ==== Proof.lean ====
/-
  A mesh loss: the mean absolute error between predicted and true node coordinates, the mean absolute difference
  between the graph Laplacians of the predicted and the input coordinates, and the first plus half the second.

  The reference computes each Laplacian by gathering, per edge, the coordinates at the edge's target and source rows,
  subtracting, and adding the difference into the target's row; it then subtracts the two Laplacians.  The kernel
  program regroups: with d = predicted - input it adds, per edge, d at the source row and a one into the target's row,
  so that each node gets the sum of d over its in-edges' sources and the number of its in-edges, and the Laplacian
  difference at a node is count * d(node) - that sum.  For an edge that lands on a node the target row IS that node
  (its word is in range, so it is neither shifted nor clamped), which makes the two groupings equal for finite inputs,
  where the extended reals compute as the reals.  The kernel itself only sums absolute values, over four tiles of a
  padded, transposed layout; the padding contributes zeros, and sums of extended reals may be regrouped freely.  Both
  sides divide by the same literal 300000 and weigh by the same literal one half.
-/
import proofs.«169432_j69655779607183_2_alg».proof.Defs
import proofs.«169432_j69655779607183_2_alg».proof.Proof.Gen.Kernel
import proofs.«169432_j69655779607183_2_alg».proof.Proof.Gen.Kernel.Frame
import proofs.«169432_j69655779607183_2_alg».proof.Proof.Gen.KernelIdeal
import proofs.«169432_j69655779607183_2_alg».proof.Proof.Gen.KernelIdeal.Frame
import proofs.«169432_j69655779607183_2_alg».proof.Proof.Gen.ReferenceIdeal
import proofs.«169432_j69655779607183_2_alg».proof.Proof.Gen.ReferenceIdeal.Run
import proofs.«169432_j69655779607183_2_alg».proof.Proof.Gen.ReferenceIdeal.Read
import proofs.«169432_j69655779607183_2_alg».proof.Proof.Gen.Pre_finite_inputs
import proofs.«169432_j69655779607183_2_alg».proof.Proof.KernelRun
import proofs.«169432_j69655779607183_2_alg».proof.Proof.KernelValue
import proofs.«169432_j69655779607183_2_alg».proof.Proof.RefSide
import proofs.«169432_j69655779607183_2_alg».proof.Proof.LapAlgebra
import proofs.«169432_j69655779607183_2_alg».proof.Proof.FiniteArgs
import Idealize.ShloMosaic.Adequacy
import Idealize.ShloMosaic.Init

noncomputable section

namespace Cert.Proof

open Idealize.ShloMosaic Idealize.SL.Sem Cert.Bridge

/-- The word-level kernel program runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run with the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- No operation was rewritten when the kernel program was read over the extended reals. -/
theorem preserves : Cert.preserves_Kernel_KernelIdeal := trivial

/-- On finite inputs the two programs end with the same three numbers. -/
theorem algebraic : Cert.algebraic_KernelIdeal_ReferenceIdeal := by
  intro m ρ m' ρ' hpre hagree
  refine ⟨fun c => shapeCast Cert.KernelIdeal.S_ (Cert.KernelIdeal.Outs.res5 m c) Cert.KernelIdeal.Facts₀.shapeCasts_S1x1_S_,
    fun c => shapeCast Cert.KernelIdeal.S_ (Cert.KernelIdeal.Outs.res6 m c) Cert.KernelIdeal.Facts₀.shapeCasts_S1x1_S_,
    fun c => shapeCast Cert.KernelIdeal.S_ (Cert.KernelIdeal.Outs.res7 m c) Cert.KernelIdeal.Facts₀.shapeCasts_S1x1_S_,
    Cert.KernelIdeal.Run.run (F := Ideal) m ρ, ?_⟩
  refine (θ_run Cert.ReferenceIdeal.defs _ _).mono (fun _ h c => ?_) (Cert.ReferenceIdeal.Value.run (F := Ideal) m' ρ')
  obtain ⟨h49, h47, h43, hargs⟩ := h c
  have hP := FiniteArgs.real_arg0 _ _ _ _ (hpre c)
  have hI := FiniteArgs.real_arg2 _ _ _ _ (hpre c)
  have hlap := LapAlgebra.kerLapSum_eq _ _ (m ((c.tc : Thread Cert.KernelIdeal.nD Cert.KernelIdeal.τ).loc Cert.KernelIdeal.main_arg3)) hP hI
  refine ⟨h49.trans ?_, h47.trans ?_, h43.trans ?_, hargs⟩
  · beta_reduce
    rw [Cert.ReferenceIdeal.Read.val_main_v49_eq, RefSide.ref_total, (hagree c).1, (hagree c).2.1, (hagree c).2.2.1,
      (hagree c).2.2.2, Cert.KernelIdeal.Results.out0_value, hlap]
  · beta_reduce
    rw [Cert.ReferenceIdeal.Read.val_main_v47_eq, RefSide.ref_l1, (hagree c).1, (hagree c).2.1,
      Cert.KernelIdeal.Results.out1_value]
  · beta_reduce
    rw [Cert.ReferenceIdeal.Read.val_main_v43_eq, RefSide.ref_lap, (hagree c).1, (hagree c).2.2.1, (hagree c).2.2.2,
      Cert.KernelIdeal.Results.out2_value, hlap]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
